-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S16x2048 : Shape := ⟨2, ![16, 2048]⟩

class Facts : Prop where
  bcast_S256_S1x1x256_2 : S256.BroadcastsInDim S1x1x256 (![2] : Fin 1 → Fin S1x1x256.rank)
  bcast_S1x1x256_S16x2048x256_0_1_2 : S1x1x256.BroadcastsInDim S16x2048x256 (![0, 1, 2] : Fin 3 → Fin S16x2048x256.rank)
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S16x2048x256_S16x2048_d2 : S16x2048x256.ReducesTo [2] S16x2048
  bcast_S_S16x2048 : S_.BroadcastsInDim S16x2048 (![] : Fin 0 → Fin S16x2048.rank)
  reducesTo_S16x2048_S_d0_1 : S16x2048.ReducesTo [0, 1] S_
  dot_S16x2048x256_S256x256_S16x2048x256_2_1_01_0_n_n_wf : DotDims.WF S16x2048x256 S256x256 S16x2048x256 [2] [1] [0, 1] [0] [] []

variable [Facts]

def dot_S16x2048x256_S256x256_S16x2048x256_2_1_01_0_n_n : DotDims S16x2048x256 S256x256 S16x2048x256 where
  lhsContracting := [2]
  rhsContracting := [1]
  lhsNonContracting := [0, 1]
  rhsNonContracting := [0]
  lhsBatch := []
  rhsBatch := []
  wf := dot_S16x2048x256_S256x256_S16x2048x256_2_1_01_0_n_n_wf
def fn_part1 {F : FTy → Type} [FloatOps F] (main_v3 : FVec F S16x2048x256 .f32) (main_v17 : IVec S_ 1) : IVec S_ 1 :=
  let main_v18 : FVec F S16x2048x256 .f32 := mulf main_v3 main_v3
  let main_cst_4 : FVec F S_ .f32 := constant S_ .f32 0x00000000#32
  let main_v19 : FVec F S16x2048 .f32 := (fun x v => Host.reduceAdd x v reducesTo_S16x2048x256_S16x2048_d2 h_S_) main_v18 main_cst_4
  let main_cst_5 : FVec F S_ .f32 := constant S_ .f32 0x00000000#32
  let main_v20 : FVec F S16x2048 .f32 := broadcastInDim S16x2048 ![] bcast_S_S16x2048 main_cst_5
  let main_v21 : IVec S16x2048 1 := cmpf .ogt main_v19 main_v20
  let main_c_6 : IVec S_ 1 := constantI S_ 1 1#1
  let main_v22 : IVec S_ 1 := (fun x v => Host.reduce IntOp.andi x v reducesTo_S16x2048_S_d0_1 h_S_) main_v21 main_c_6
  let main_v23 : IVec S_ 1 := andi main_v17 main_v22
  main_v23

def fn {F : FTy → Type} [FloatOps F] (main_arg0 : FVec F S16x2048x256 .f32) (main_arg1 : FVec F S256x256 .f32) (main_arg2 : FVec F S256 .f32) : IVec S_ 1 :=
  let main_v0 : FVec F S16x2048x256 .f32 := (fun l r => Host.dotGeneral dot_S16x2048x256_S256x256_S16x2048x256_2_1_01_0_n_n none l r) main_arg0 main_arg1
  let main_v1 : FVec F S1x1x256 .f32 := broadcastInDim S1x1x256 ![2] bcast_S256_S1x1x256_2 main_arg2
  let main_v2 : FVec F S16x2048x256 .f32 := broadcastInDim S16x2048x256 ![0, 1, 2] bcast_S1x1x256_S16x2048x256_0_1_2 main_v1
  let main_v3 : FVec F S16x2048x256 .f32 := addf main_v0 main_v2
  let main_v4 : FVec F S16x2048x256 .f32 := Host.absf main_arg0
  let main_cst : FVec F S_ .f32 := constant S_ .f32 0x7F800000#32
  let main_v5 : FVec F S16x2048x256 .f32 := broadcastInDim S16x2048x256 ![] bcast_S_S16x2048x256 main_cst
  let main_v6 : IVec S16x2048x256 1 := cmpf .olt main_v4 main_v5
  let main_c : IVec S_ 1 := constantI S_ 1 1#1
  let main_v7 : IVec S_ 1 := (fun x v => Host.reduce IntOp.andi x v reducesTo_S16x2048x256_S_d0_1_2 h_S_) main_v6 main_c
  let main_v8 : FVec F S256x256 .f32 := Host.absf main_arg1
  let main_cst_0 : FVec F S_ .f32 := constant S_ .f32 0x7F800000#32
  let main_v9 : FVec F S256x256 .f32 := broadcastInDim S256x256 ![] bcast_S_S256x256 main_cst_0
  let main_v10 : IVec S256x256 1 := cmpf .olt main_v8 main_v9
  let main_c_1 : IVec S_ 1 := constantI S_ 1 1#1
  let main_v11 : IVec S_ 1 := (fun x v => Host.reduce IntOp.andi x v reducesTo_S256x256_S_d0_1 h_S_) main_v10 main_c_1
  let main_v12 : IVec S_ 1 := andi main_v7 main_v11
  let main_v13 : FVec F S256 .f32 := Host.absf main_arg2
  let main_cst_2 : FVec F S_ .f32 := constant S_ .f32 0x7F800000#32
  let main_v14 : FVec F S256 .f32 := broadcastInDim S256 ![] bcast_S_S256 main_cst_2
  let main_v15 : IVec S256 1 := cmpf .olt main_v13 main_v14
  let main_c_3 : IVec S_ 1 := constantI S_ 1 1#1
  let main_v16 : IVec S_ 1 := (fun x v => Host.reduce IntOp.andi x v reducesTo_S256_S_d0 h_S_) main_v15 main_c_3
  let main_v17 : IVec S_ 1 := andi main_v12 main_v16
  fn_part1 (F := F) main_v3 main_v17
-- ==== Kernel.lean ====
abbrev S16x2048x256 : Shape := ⟨3, ![16, 2048, 256]⟩
abbrev S256x256 : Shape := ⟨2, ![256, 256]⟩
abbrev S256 : Shape := ⟨1, ![256]⟩
abbrev S1x256 : Shape := ⟨2, ![1, 256]⟩
abbrev S1x2048x256 : Shape := ⟨3, ![1, 2048, 256]⟩
abbrev S2048x256 : Shape := ⟨2, ![2048, 256]⟩
abbrev S2048 : Shape := ⟨1, ![2048]⟩
abbrev S2048x1 : Shape := ⟨2, ![2048, 1]⟩
abbrev S16x2048x2048 : Shape := ⟨3, ![16, 2048, 2048]⟩
abbrev S1x1024x256 : Shape := ⟨3, ![1, 1024, 256]⟩
abbrev S1x2048x1024 : Shape := ⟨3, ![1, 2048, 1024]⟩
abbrev S1024x256 : Shape := ⟨2, ![1024, 256]⟩
abbrev S2048x1024 : Shape := ⟨2, ![2048, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16x2048x256, .f32⟩
  | .hbm, ⟨1, _⟩ => ⟨S256x256, .f32⟩
  | .hbm, ⟨2, _⟩ => ⟨S256, .f32⟩
  | .hbm, ⟨3, _⟩ => ⟨S1x256, .f32⟩
  | .hbm, ⟨4, _⟩ => ⟨S16x2048x256, .bf16⟩
  | .hbm, ⟨5, _⟩ => ⟨S16x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S1x256, .f32⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x2048x1024, .f32⟩
  | .local _ .vmem, ⟨11, _⟩ => ⟨S1x2048x1024, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![16, 1, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  shapeCasts_S256_S1x256 : S256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  shapeCasts_S2048x256_S1x2048x256 : S2048x256.ShapeCasts S1x2048x256
  packedbf16_S1x2048x256_S1x2048x256_0_0_0 : (Rect.unit (s := S1x2048x256) ![0, 0, 0] S1x2048x256.size inb_S1x2048x256_S1x2048x256_0_0_0).PackedRows (EltTy.packing .bf16)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  dot_S2048x256_S256x256_S2048x256_1_1_0_0_n_n_wf : DotDims.WF S2048x256 S256x256 S2048x256 [1] [1] [0] [0] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S16x2048x256.size a
  hwx0_3 : ∀ i : grid0.Coords, EltTy.bits .bf16 = 32 ∨ (Rect.block (s := S16x2048x256) S1x2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S16x2048x256.size a
  hwx1_0 : ∀ i : grid1.Coords, EltTy.bits .bf16 = 32 ∨ (Rect.block (s := S16x2048x256) S1x2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S16x2048x256.size a
  hwx1_1 : ∀ i : grid1.Coords, EltTy.bits .bf16 = 32 ∨ (Rect.block (s := S16x2048x256) S1x1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S16x2048x2048.size a
  hwx1_2 : ∀ i : grid1.Coords, EltTy.bits .f32 = 32 ∨ (Rect.block (s := S16x2048x2048) S1x2048x1024.size (cc1_transform_2 i) (hinb1_2 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x2048x256 : Shape := ⟨3, ![16, 2048, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S16x2048 : Shape := ⟨2, ![16, 2048]⟩
abbrev S16x2048x1 : Shape := ⟨3, ![16, 2048, 1]⟩
abbrev S16x2048x2048 : Shape := ⟨3, ![16, 2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S256x256, .f32⟩
  | .hbm, ⟨2, _⟩ => ⟨S256, .f32⟩
  | .hbm, ⟨3, _⟩ => ⟨S16x2048x256, .f32⟩
  | .hbm, ⟨4, _⟩ => ⟨S1x1x256, .f32⟩
  | .hbm, ⟨5, _⟩ => ⟨S16x2048x256, .f32⟩
  | .hbm, ⟨6, _⟩ => ⟨S16x2048x256, .f32⟩
  | .hbm, ⟨7, _⟩ => ⟨S16x2048x256, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S16x2048x1, .f32⟩
  | .hbm, ⟨12, _⟩ => ⟨S16x2048x256, .f32⟩
  | .hbm, ⟨13, _⟩ => ⟨S16x2048x256, .f32⟩
  | .hbm, ⟨14, _⟩ => ⟨S16x2048x2048, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x2048x256_0_1_2 : S1x1x256.BroadcastsInDim S16x2048x256 (![0, 1, 2] : Fin 3 → Fin S16x2048x256.rank)
  reducesTo_S16x2048x256_S16x2048_d2 : S16x2048x256.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x256_0_1_2 : S16x2048x1.BroadcastsInDim S16x2048x256 (![0, 1, 2] : Fin 3 → Fin S16x2048x256.rank)
  dot_S16x2048x256_S256x256_S16x2048x256_2_1_01_0_n_n_wf : DotDims.WF S16x2048x256 S256x256 S16x2048x256 [2] [1] [0, 1] [0] [] []
  dot_S16x2048x256_S16x2048x256_S16x2048x2048_2_2_1_1_0_0_wf : DotDims.WF S16x2048x256 S16x2048x256 S16x2048x2048 [2] [2] [1] [1] [0] [0]

variable [Facts₀]

def dot_S16x2048x256_S256x256_S16x2048x256_2_1_01_0_n_n : DotDims S16x2048x256 S256x256 S16x2048x256 where
  lhsContracting := [2]
  rhsContracting := [1]
  lhsNonContracting := [0, 1]
  rhsNonContracting := [0]
  lhsBatch := []
  rhsBatch := []
  wf := dot_S16x2048x256_S256x256_S16x2048x256_2_1_01_0_n_n_wf
def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf

class Facts : Prop extends Facts₀ where

variable [Facts]
-- ==== Proof.BitsStages.lean ====
/-
  The two kernels of the program, each as a pure function of the blocks it is handed.

  Stage one (one grid point per batch element b): from the block x[b] of the input, the whole weight matrix W and the bias
  row, the body stores the row-normalised projection  pn = p · rsqrt(Σ_e p², kept per row),  p = x[b] · Wᵀ + bias.
  Stage two (grid point (b, 0, j)): from the row block pn[b] and the column block pn[b, 1024 j .. 1024 j + 1023] the body
  stores their products over the feature axis, the block [b, :, 1024 j ..] of the Gram matrix pn[b] · pn[b]ᵀ.

  Each body reads its inputs' staging buffers whole, reads its output's staging buffer (the value is not used) and
  overwrites it whole; so after the body the output's buffer is the stored value, a function of the input blocks alone,
  and each input's buffer still holds its block. These facts are stated here for every grid point, for any contents the
  arrays have when the stage is entered, and at any reading of the float operations.
-/
import proofs.«136326_j40570261078386_2_alg».proof.Proof.Gen.Kernel.Launch
import proofs.«136326_j40570261078386_2_alg».proof.Proof.Gen.Kernel.Skeleton
import proofs.«136326_j40570261078386_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stages

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when a stage is entered
variable (V : (c : Dev nD) → (b : Ref sig .tc) → Buf (Elt F) ((c : Thread nD τ).loc b))

/-! # Stage one: projection and row normalisation -/

/-- Window `w`'s block at grid point `t`, read off its array as the stage finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the point fetches it (an unfetched
    point has the block index of the point before): the input batch block, -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)
/-- the weight matrix, -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)
/-- and the bias row. -/
theorem projBefore2_of {c : Dev nD} (dat : Dat τ (Elt F) Unit ℕ (UR sig nD τ) ℕ cfg0 c) (hA : dat.A 2 = V c (Pipeline.arrRef spec0 2))
    (hafter : ∀ t, dat.after 2 t = projBlk V c 2 t) (t : Fin cfg0.N) (d) : dat.before 2 t d = projBlk V c 2 t :=
  (dat.before_in_eq_fetched 2 rfl (fun _ => rfl) (fun _ _ _ => rfl) (fun t => by rw [hafter]; unfold Dat.blockOf projBlk; rw [hA]; try rfl) t d).trans
    (by unfold Dat.fetched Dat.blockOf projBlk; rw [hA]; try rfl)

/-- The whole block of a batch element, -/
abbrev rX : Rect S1x2048x256 := Rect.unit (s := S1x2048x256) ![0, 0, 0] S1x2048x256.size inb_S1x2048x256_S1x2048x256_0_0_0
/-- the whole weight matrix, -/
abbrev rW : Rect S256x256 := Rect.unit (s := S256x256) ![0, 0] S256x256.size inb_S256x256_S256x256_0_0
/-- the whole bias row. -/
abbrev rB : Rect S1x256 := Rect.unit (s := S1x256) ![0, 0] S1x256.size inb_S1x256_S1x256_0_0

/-- What stage one leaves in its output's staging buffer: its one store, over the whole block, of the normalised projection
    of the three blocks it read. -/
def projOut (x : Vec F S1x2048x256 .f32) (w : Vec F S256x256 .f32) (b : Vec F S1x256 .f32) : Vec F S1x2048x256 .bf16 :=
  View.canon [⟨rX, k0_pay1 (View.ld x rX) (View.ld w rW) (View.ld b rB)⟩]

/-- The store covers the buffer. -/
theorem projCover (p0 : Vec F S1x2048x256 .bf16) (y : S1x2048x256.Idx) :
    ∃ pc ∈ ([⟨rX, p0⟩] : List (View.Piece (Elt F) S1x2048x256 .bf16)), y ∈ pc.1.set :=
  View.cover_of_tiled [⟨rX, p0⟩] S1x2048x256.size (by rfl) y

set_option maxHeartbeats 1000000 in
/-- The body of stage one on whole staging buffers, the inputs' at contents `x`, `w`, `b` and the output's at anything,
    runs to the end holding the inputs' as they were and the output's at `projOut x w b`. -/
theorem projKernel (c : Dev nD) (E : Set ℕ) (i : grid0.Coords)
    (arg1 : Memref sig .tc .vmem S1x2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1x2048x256 .bf16) (harg4 : arg4.IsWhole)
    (x : Vec F S1x2048x256 .f32) (w : Vec F S256x256 .f32) (b : Vec F S1x256 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projOut x w b)) -∗ K ⟨⟩))
      ⊢ wp frame (wpE (defs₀ (F := F)) Variants.none c none) E (cc0__proj_norm_kernel i arg1 harg1 arg2 harg2 arg3 harg3 arg4 harg4) K := by
  simp only [cc0__proj_norm_kernel_eq_skeleton]; unfold cc0__proj_norm_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (projCover _)

/-! ## The proof data of stage one -/

/-- At every grid point each input's buffer is left at its block and the output's at `projOut` of the three input blocks;
    nothing else is kept between points. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projBlk V c 2 t
    | ⟨3, _⟩ => projOut (projBlk V c 0 t) (projBlk V c 1 t) (projBlk V c 2 t)
  Φ _ := Pipeline.ΦA spec0 c
  q _ := fullShare
  owed _ := 0

theorem projA (c : Dev nD) (w : Fin cfg0.W) : (projDat V c).A w = V c (Pipeline.arrRef spec0 w) := by
  dsimp only [projDat]
theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projBlk V c 2 t := by dsimp only [projDat]
theorem projAfter3 (c : Dev nD) (t : Fin cfg0.N) :
    (projDat V c).after 3 t = projOut (projBlk V c 0 t) (projBlk V c 1 t) (projBlk V c 2 t) := by dsimp only [projDat]

theorem projBefore0 (c : Dev nD) (t : Fin cfg0.N) (d) : (projDat V c).before 0 t d = projBlk V c 0 t :=
  projBefore0_of V (projDat V c) (projA V c 0) (projAfter0 V c) t d
theorem projBefore1 (c : Dev nD) (t : Fin cfg0.N) (d) : (projDat V c).before 1 t d = projBlk V c 1 t :=
  projBefore1_of V (projDat V c) (projA V c 1) (projAfter1 V c) t d
theorem projBefore2 (c : Dev nD) (t : Fin cfg0.N) (d) : (projDat V c).before 2 t d = projBlk V c 2 t :=
  projBefore2_of V (projDat V c) (projA V c 2) (projAfter2 V c) t d

/-- What the body of stage one is called with at point `t`, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d))
    ∗ (∃ d, owns (c : Thread nD τ) (st0_3 t) fullShare ((projDat V c).before 3 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t)
    ∗ owns (c : Thread nD τ) (st0_3 t) fullShare ((projDat V c).after 3 t))

theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1, projBefore2]
  rw [show (projDat V c).Φ t.succ = (projDat V c).Φ t.castSucc from rfl,
    show (projDat V c).owesAt () t.succ = (projDat V c).owesAt () t.castSucc from rfl,
    projAfter0, projAfter1, projAfter2, projAfter3]
  iintro ⟨HΦ, Ho, ⟨%d0, H0⟩, ⟨%d1, H1⟩, ⟨%d2, H2⟩, ⟨%d3, H3⟩⟩
  iapply (projKernel c Set.univ _ _ _ _ _ _ _ _ _ (projBlk V c 0 t) (projBlk V c 1 t) (projBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of stage one, at every point. -/
theorem projObligation (c : Dev nD) : BodyObligation (projDat (F := F) V c) (defs₀ (F := F)) Variants.none () Set.univ := fun t => by
  rw [bigSep_W0, bigSep_W0]
  exact projBody V c t

/-! # Stage two: the Gram matrix of the normalised rows -/

/-- Window `w`'s block at grid point `t`, read off its array as the stage finds it. -/
def gramBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block stays in its buffer across the two column points of a batch element, -/
theorem gramBefore0_of {c : Dev nD} (dat : Dat τ (Elt F) Unit ℕ (UR sig nD τ) ℕ cfg1 c) (hA : dat.A 0 = V c (Pipeline.arrRef spec1 0))
    (hafter : ∀ t, dat.after 0 t = gramBlk V c 0 t) (t : Fin cfg1.N) (d) : dat.before 0 t d = gramBlk V c 0 t :=
  (dat.before_in_eq_fetched 0 rfl (fun _ => rfl) (fun _ _ _ => rfl) (fun t => by rw [hafter]; unfold Dat.blockOf gramBlk; rw [hA]; try rfl) t d).trans
    (by unfold Dat.fetched Dat.blockOf gramBlk; rw [hA]; try rfl)
/-- and the column block is fetched at every point. -/
theorem gramBefore1_of {c : Dev nD} (dat : Dat τ (Elt F) Unit ℕ (UR sig nD τ) ℕ cfg1 c) (hA : dat.A 1 = V c (Pipeline.arrRef spec1 1))
    (hafter : ∀ t, dat.after 1 t = gramBlk V c 1 t) (t : Fin cfg1.N) (d) : dat.before 1 t d = gramBlk V c 1 t :=
  (dat.before_in_eq_fetched 1 rfl (fun _ => rfl) (fun _ _ _ => rfl) (fun t => by rw [hafter]; unfold Dat.blockOf gramBlk; rw [hA]; try rfl) t d).trans
    (by unfold Dat.fetched Dat.blockOf gramBlk; rw [hA]; try rfl)

/-- The whole row block, -/
abbrev rR : Rect S1x2048x256 := Rect.unit (s := S1x2048x256) ![0, 0, 0] S1x2048x256.size inb_S1x2048x256_S1x2048x256_0_0_0
/-- the whole column block, -/
abbrev rC : Rect S1x1024x256 := Rect.unit (s := S1x1024x256) ![0, 0, 0] S1x1024x256.size inb_S1x1024x256_S1x1024x256_0_0_0
/-- the whole output block. -/
abbrev rG : Rect S1x2048x1024 := Rect.unit (s := S1x2048x1024) ![0, 0, 0] S1x2048x1024.size inb_S1x2048x1024_S1x2048x1024_0_0_0

/-- What stage two leaves in its output's staging buffer: its one store, over the whole block, of the products of the row
    block with the column block. -/
def gramOut (r : Vec F S1x2048x256 .bf16) (k : Vec F S1x1024x256 .bf16) : Vec F S1x2048x1024 .f32 :=
  View.canon [⟨rG, k1_pay1 (View.ld r rR) (View.ld k rC)⟩]

theorem gramCover (p0 : Vec F S1x2048x1024 .f32) (y : S1x2048x1024.Idx) :
    ∃ pc ∈ ([⟨rG, p0⟩] : List (View.Piece (Elt F) S1x2048x1024 .f32)), y ∈ pc.1.set :=
  View.cover_of_tiled [⟨rG, p0⟩] S1x2048x1024.size (by rfl) y

set_option maxHeartbeats 1000000 in
/-- The body of stage two on whole staging buffers, the inputs' at contents `r`, `k` and the output's at anything, runs to
    the end holding the inputs' as they were and the output's at `gramOut r k`. -/
theorem gramKernel (c : Dev nD) (E : Set ℕ) (i : grid1.Coords)
    (arg3 : Memref sig .tc .vmem S1x2048x256 .bf16) (harg3 : arg3.IsWhole) (arg4 : Memref sig .tc .vmem S1x1024x256 .bf16) (harg4 : arg4.IsWhole)
    (arg5 : Memref sig .tc .vmem S1x2048x1024 .f32) (harg5 : arg5.IsWhole)
    (r : Vec F S1x2048x256 .bf16) (k : Vec F S1x1024x256 .bf16) (K : PUnit → sProp 𝕄) :
    iprop(owns (c : Thread nD τ) arg3 fullShare r ∗ owns (c : Thread nD τ) arg4 fullShare k
        ∗ (∃ d, owns (c : Thread nD τ) arg5 fullShare d)
        ∗ (iprop(owns (c : Thread nD τ) arg3 fullShare r ∗ owns (c : Thread nD τ) arg4 fullShare k
            ∗ owns (c : Thread nD τ) arg5 fullShare (gramOut r k)) -∗ K ⟨⟩))
      ⊢ wp frame (wpE (defs₀ (F := F)) Variants.none c none) E (cc1__gram_kernel i arg3 harg3 arg4 harg4 arg5 harg5) K := by
  simp only [cc1__gram_kernel_eq_skeleton]; unfold cc1__gram_kernel_skel
  unfold owns
  iintro ⟨⟨%f3, %hf3, H3⟩, ⟨%f4, %hf4, H4⟩, ⟨%d5, %f5, -, H5⟩, Hk⟩
  subst hf3; subst hf4
  sl_exec
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (gramCover _)

/-! ## The proof data of stage two -/

/-- The two input windows read one array, the normalised rows: each holds half of it (the left and the right half of the
    full share); the output's array is held whole. -/
def gramDat (c : Dev nD) : Dat τ (Elt F) Unit ℕ (UR sig nD τ) ℕ cfg1 c where
  A w := V c (Pipeline.arrRef spec1 w)
  after w t := match w with
    | ⟨0, _⟩ => gramBlk V c 0 t
    | ⟨1, _⟩ => gramBlk V c 1 t
    | ⟨2, _⟩ => gramOut (gramBlk V c 0 t) (gramBlk V c 1 t)
  Φ _ := Pipeline.ΦA spec1 c
  q w := match w with
    | ⟨0, _⟩ => fullShare.left
    | ⟨1, _⟩ => fullShare.right
    | ⟨2, _⟩ => fullShare
  owed _ := 0

theorem gramA (c : Dev nD) (w : Fin cfg1.W) : (gramDat V c).A w = V c (Pipeline.arrRef spec1 w) := by
  dsimp only [gramDat]
theorem gramAfter0 (c : Dev nD) (t : Fin cfg1.N) : (gramDat V c).after 0 t = gramBlk V c 0 t := by dsimp only [gramDat]
theorem gramAfter1 (c : Dev nD) (t : Fin cfg1.N) : (gramDat V c).after 1 t = gramBlk V c 1 t := by dsimp only [gramDat]
theorem gramAfter2 (c : Dev nD) (t : Fin cfg1.N) :
    (gramDat V c).after 2 t = gramOut (gramBlk V c 0 t) (gramBlk V c 1 t) := by dsimp only [gramDat]

theorem gramBefore0 (c : Dev nD) (t : Fin cfg1.N) (d) : (gramDat V c).before 0 t d = gramBlk V c 0 t :=
  gramBefore0_of V (gramDat V c) (gramA V c 0) (gramAfter0 V c) t d
theorem gramBefore1 (c : Dev nD) (t : Fin cfg1.N) (d) : (gramDat V c).before 1 t d = gramBlk V c 1 t :=
  gramBefore1_of V (gramDat V c) (gramA V c 1) (gramAfter1 V c) t d

def gramPre (c : Dev nD) (t : Fin cfg1.N) : sProp 𝕄 :=
  iprop((gramDat V c).Φ t.castSucc ∗ (gramDat V c).owesAt () t.castSucc
    ∗ (∃ d, owns (c : Thread nD τ) (st1_0 t) fullShare ((gramDat V c).before 0 t d))
    ∗ (∃ d, owns (c : Thread nD τ) (st1_1 t) fullShare ((gramDat V c).before 1 t d))
    ∗ (∃ d, owns (c : Thread nD τ) (st1_2 t) fullShare ((gramDat V c).before 2 t d)))

def gramPost (c : Dev nD) (t : Fin cfg1.N) : sProp 𝕄 :=
  iprop((gramDat V c).Φ t.succ ∗ (gramDat V c).owesAt () t.succ
    ∗ owns (c : Thread nD τ) (st1_0 t) fullShare ((gramDat V c).after 0 t)
    ∗ owns (c : Thread nD τ) (st1_1 t) fullShare ((gramDat V c).after 1 t)
    ∗ owns (c : Thread nD τ) (st1_2 t) fullShare ((gramDat V c).after 2 t))

theorem gramBody (c : Dev nD) (t : Fin cfg1.N) :
    gramPre V c t ⊢ wp frame (wpE (defs₀ (F := F)) Variants.none c none) Set.univ (bodyAt1 t) (fun _ => gramPost V c t) := by
  unfold gramPre gramPost bodyAt1
  simp only [gramBefore0, gramBefore1]
  rw [show (gramDat V c).Φ t.succ = (gramDat V c).Φ t.castSucc from rfl,
    show (gramDat V c).owesAt () t.succ = (gramDat V c).owesAt () t.castSucc from rfl,
    gramAfter0, gramAfter1, gramAfter2]
  iintro ⟨HΦ, Ho, ⟨%d0, H0⟩, ⟨%d1, H1⟩, ⟨%d2, H2⟩⟩
  iapply (gramKernel c Set.univ _ _ _ _ _ _ _ (gramBlk V c 0 t) (gramBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of stage two, at every point. -/
theorem gramObligation (c : Dev nD) : BodyObligation (gramDat (F := F) V c) (defs₀ (F := F)) Variants.none () Set.univ := fun t => by
  rw [bigSep_W1, bigSep_W1]
  exact gramBody V c t

end Cert.Kernel.Stages

end
-- ==== Proof.BitsRun.lean ====
/-
  The whole program run from the launch to the return: the bias reshaped to a row on the host, stage one, stage two.

  Between the items every buffer that outlives a kernel holds a named value: the launch memory; then the bias row added;
  then the normalised rows as stage one's write-backs leave them; then the Gram matrix as stage two's write-backs leave it.
  Stage two reads the normalised rows through two windows at once, so it holds that array as two halves of the full share,
  split at its entry and joined at its exit. No item writes an argument, so each argument ends as launched, and the result
  array ends at stage two's folded write-backs over stage one's.
-/
import proofs.«136326_j40570261078386_2_alg».proof.Proof.BitsStages

set_option maxRecDepth 16384

noncomputable section

namespace Cert.Kernel.Run

open Cert.Kernel Cert.Kernel.Gen Cert.Kernel.Stages
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev B0 : Dev nD → Valuation τ sig (Elt F) := fun c b => (s₀ m ρ).mem ((c : Dev nD), b)
/-- After the host reshapes the bias to a row (stage one's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After stage one: its arrays at what its write-backs leave, every other buffer as entered. -/
def B2 (c : Dev nD) : Valuation τ sig (Elt F) :=
  Pipeline.withArrays spec0 c (B1 m ρ c) fun w => (projDat (E1 m ρ) c).arrAt w cfg0.N
theorem B2_arr (c : Dev nD) (w : Fin cfg0.W) :
    B2 m ρ c (Proc.devRef .tc (Pipeline.arrRef spec0 w)) = (projDat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem projExit (c : Dev nD) (w : Fin cfg0.W) : (projDat (E1 m ρ) c).arrAt w cfg0.N = E2 m ρ c (Pipeline.arrRef spec0 w) :=
  (B2_arr m ρ c w).symm
theorem projRest (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After stage two: the result array at what its write-backs leave, every other buffer as entered (the normalised rows
    are only read). -/
def B3 (c : Dev nD) : Valuation τ sig (Elt F) :=
  Function.update (B2 m ρ c) main_v2 ((gramDat (E2 m ρ) c).arrAt 2 cfg1.N)
abbrev E3 : (c : Dev nD) → (b : Ref sig .tc) → Buf (Elt F) ((c : Thread nD τ).loc b) := fun c b => B3 m ρ c b
theorem B3_out (c : Dev nD) : B3 m ρ c main_v2 = (gramDat (E2 m ρ) c).arrAt 2 cfg1.N := by
  unfold B3; exact Function.update_self ..
theorem B3_of_ne (c : Dev nD) (b : Ref sig .tc) (hb : b ≠ main_v2) : B3 m ρ c (Proc.devRef .tc b) = B2 m ρ c (Proc.devRef .tc b) := by
  unfold B3; exact Function.update_of_ne (StableHlo.devRef_ne_of_ne hb) ..

/-! ### The arguments end as launched -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := (B2_arr m ρ c 0).trans (((projDat (E1 m ρ) c).arrAt_in 0 rfl _).trans (projA (E1 m ρ) c 0))
    _ = B0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := (B2_arr m ρ c 1).trans (((projDat (E1 m ρ) c).arrAt_in 1 rfl _).trans (projA (E1 m ρ) c 1))
    _ = B0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl

/-! ## The proof data of both stages, and what rides beside the buffers -/

abbrev adm : (p : Fin 2) → (pcfgs (F := F) p).Adm := fun p => (cfgs p).toPCfg_adm
/-- Each stage's proof data at the contents it is entered from. -/
def pdats : (p : Fin 2) → (c : Dev nD) → Dat τ (Elt F) Unit ℕ (UR sig nD τ) ℕ (Pipeline.pin (pcfgs (F := F)) adm p) c
  | ⟨0, _⟩ => fun c => projDat (E1 m ρ) c
  | ⟨1, _⟩ => fun c => gramDat (E2 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of the buffers. -/
abbrev Tₙ (c : Dev nD) : sProp 𝕄 := iprop(StableHlo.held (c : Thread nD τ) (Pipeline.ucRefs τ sig) (B3 m ρ c) ∗ ∃ r, prngReg c r)

/-! ## Stage two's arrays: one array behind two windows -/

/-- The arrays stage two is handed are the normalised rows and the result. -/
theorem gramArrs : (Finset.univ.image (Pipeline.arrRef spec1) : Finset (Ref sig .tc)) = {main_v1, main_v2} := by decide

/-- Stage two's arrays at contents `Fv`, spelt out: the normalised rows twice, at the left and the right half of the full
    share, and the result whole. -/
theorem gramArrays_eq (V : (c : Dev nD) → (b : Ref sig .tc) → Buf (Elt F) ((c : Thread nD τ).loc b)) (c : Dev nD)
    (Fv : (w : Fin cfg1.W) → Buf (Elt F) ((cfg1.win w).arr.view.loc (c : Thread nD τ))) :
    ((gramDat V c).arrays Fv : sProp 𝕄)
      = iprop((((c : Thread nD τ).loc main_v1) ↦{fullShare.left} Fv 0) ∗ (((c : Thread nD τ).loc main_v1) ↦{fullShare.right} Fv 1)
          ∗ (((c : Thread nD τ).loc main_v2) ↦{fullShare} Fv 2)) := by
  unfold Pipeline.Dat.arrays
  rw [bigSep_W1, (arr_whole1 0).set_eq_univ, (arr_whole1 2).set_eq_univ]
  rfl

/-- The buffers behind stage two's arrays, spelt out: the normalised rows and the result, each whole. -/
theorem gramArrBufs (c : Dev nD) (V : (b : Ref sig .tc) → Buf (Elt F) ((c : Thread nD τ).loc b)) :
    (Pipeline.arrBufs (Ix := Unit) (Name := ℕ) (U := UR sig nD τ) (Lvl := ℕ) (cfgs 1).spec c V : sProp 𝕄)
      = iprop((((c : Thread nD τ).loc main_v1) ↦{fullShare} V main_v1) ∗ (((c : Thread nD τ).loc main_v2) ↦{fullShare} V main_v2)) := by
  unfold Pipeline.arrBufs
  rw [show (Finset.image (Pipeline.arrRef (cfgs 1).spec) Finset.univ : Finset (Ref sig .tc)) = {main_v1, main_v2} from gramArrs, bigSep_insert (by decide), bigSep_singleton]
  rfl

/-- ENTRY of stage two: the buffers split into its arrays — the normalised rows halved between the two windows — and the rest. -/
theorem gramSplit (c : Dev nD) :
    (unscopedBufs c (E2 m ρ c) : sProp 𝕄)
      ⊢ iprop((gramDat (E2 m ρ) c).arrays ((gramDat (E2 m ρ) c).arrAt · 0) ∗ Pipeline.unscopedRest (Ix := Unit) (Name := ℕ) (U := UR sig nD τ) (Lvl := ℕ) spec1 c (E2 m ρ c)) := by
  rw [Pipeline.unscopedBufs_split₀ cfgs 1 winFacts₀1.arr_unscoped c (E2 m ρ c), gramArrays_eq]
  refine sep_mono ?_ .rfl
  rw [gramArrBufs]
  iintro ⟨H1, H2⟩
  ihave H1 := (pointsTo_share (PosShare.mem_left_op_right fullShare)).1 $$ H1
  icases H1 with ⟨Ha, Hb⟩
  isplitl [Ha]; · iexact Ha
  isplitl [Hb]; · iexact Hb
  iexact H2

/-- EXIT of stage two: its arrays — the two halves of the normalised rows, both still at the entry contents, and the result
    at its final contents — and the rest make the buffers at the contents after the stage. -/
theorem gramJoin (c : Dev nD) :
    iprop((gramDat (E2 m ρ) c).arrays ((gramDat (E2 m ρ) c).arrAt · cfg1.N) ∗ Pipeline.unscopedRest (Ix := Unit) (Name := ℕ) (U := UR sig nD τ) (Lvl := ℕ) spec1 c (E2 m ρ c))
      ⊢ (unscopedBufs c (E3 m ρ c) : sProp 𝕄) := by
  rw [Pipeline.unscopedBufs_split₀ cfgs 1 winFacts₀1.arr_unscoped c (E3 m ρ c), gramArrays_eq]
  have h0 : (gramDat (E2 m ρ) c).arrAt 0 cfg1.N = E3 m ρ c main_v1 :=
    (((gramDat (E2 m ρ) c).arrAt_in 0 rfl _).trans (gramA (E2 m ρ) c 0)).trans (B3_of_ne m ρ c main_v1 (by decide)).symm
  have h1 : (gramDat (E2 m ρ) c).arrAt 1 cfg1.N = E3 m ρ c main_v1 :=
    (((gramDat (E2 m ρ) c).arrAt_in 1 rfl _).trans (gramA (E2 m ρ) c 1)).trans (B3_of_ne m ρ c main_v1 (by decide)).symm
  have h2 : (gramDat (E2 m ρ) c).arrAt 2 cfg1.N = E3 m ρ c main_v2 := (B3_out m ρ c).symm
  rw [h0, h1, h2]
  refine sep_mono ?_ (Entails.of_eq ?_)
  · rw [gramArrBufs]
    iintro ⟨Ha, Hb, H2⟩
    isplitl [Ha Hb]
    · iapply (pointsTo_share (PosShare.mem_left_op_right fullShare)).2
      isplitl [Ha] <;> iassumption
    iexact H2
  · unfold Pipeline.unscopedRest
    refine bigSep_congr fun b hb => ?_
    have hne : b ≠ main_v2 := fun e => (Finset.mem_sdiff.mp hb).2 (by rw [gramArrs, e]; decide)
    rw [show E3 m ρ c b = E2 m ρ c b from B3_of_ne m ρ c b hne]

/-! ## The stages as items of the program -/

set_option backward.isDefEq.respectTransparency.types false in
/-- Stage one: entered from the buffers after the host's reshape, left at stage one's write-backs. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (projObligation (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (projExit m ρ c) (projRest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage two: entered from the buffers after stage one, left at the last state; the normalised rows halved between its two
    input windows on the way in and joined again on the way out. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (gramObligation (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit : (unscopedBufs c (E2 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (E2 m ρ c)) :=
      gramSplit m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (E2 m ρ c))
        ⊢ (unscopedBufs c (E3 m ρ c) : sProp 𝕄) := gramJoin m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the run -/

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` terminates, nothing faulting; at the end the result array
    holds stage two's write-backs folded over the normalised rows stage one wrote, and each argument array is as launched. -/
theorem run : θ_run defs (onTc (τ := τ) (main (F := F))) ⟨m, fun _ => 0, ρ⟩ (fun r => ∀ c : Dev nD,
      r.2.mem ((c.tc : Thread nD τ).loc main_v2) = (gramDat (E2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c =>
      ⟨(h c _ (mem_uc main_v2 (by decide))).trans (B3_out m ρ c),
       (h c _ (mem_uc main_arg0 (by decide))).trans (B3_main_arg0 m ρ c),
       (h c _ (mem_uc main_arg1 (by decide))).trans (B3_main_arg1 m ρ c),
       (h c _ (mem_uc main_arg2 (by decide))).trans (B3_main_arg2 m ρ c)⟩)

end Cert.Kernel.Run

end
-- ==== Proof.IdealStages.lean ====
/-
  The two kernels of the program, each as a pure function of the blocks it is handed.

  Stage one (one grid point per batch element b): from the block x[b] of the input, the whole weight matrix W and the bias
  row, the body stores the row-normalised projection  pn = p · rsqrt(Σ_e p², kept per row),  p = x[b] · Wᵀ + bias.
  Stage two (grid point (b, 0, j)): from the row block pn[b] and the column block pn[b, 1024 j .. 1024 j + 1023] the body
  stores their products over the feature axis, the block [b, :, 1024 j ..] of the Gram matrix pn[b] · pn[b]ᵀ.

  Each body reads its inputs' staging buffers whole, reads its output's staging buffer (the value is not used) and
  overwrites it whole; so after the body the output's buffer is the stored value, a function of the input blocks alone,
  and each input's buffer still holds its block. These facts are stated here for every grid point, for any contents the
  arrays have when the stage is entered, and at any reading of the float operations.
-/
import proofs.«136326_j40570261078386_2_alg».proof.Proof.Gen.KernelIdeal.Launch
import proofs.«136326_j40570261078386_2_alg».proof.Proof.Gen.KernelIdeal.Skeleton
import proofs.«136326_j40570261078386_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when a stage is entered
variable (V : (c : Dev nD) → (b : Ref sig .tc) → Buf (Elt F) ((c : Thread nD τ).loc b))

/-! # Stage one: projection and row normalisation -/

/-- Window `w`'s block at grid point `t`, read off its array as the stage finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the point fetches it (an unfetched
    point has the block index of the point before): the input batch block, -/
theorem projBefore0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)
/-- the weight matrix, -/
theorem projBefore1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)
/-- and the bias row. -/
theorem projBefore2_of {c : Dev nD} (dat : Dat τ (Elt F) Unit ℕ (UR sig nD τ) ℕ cfg0 c) (hA : dat.A 2 = V c (Pipeline.arrRef spec0 2))
    (hafter : ∀ t, dat.after 2 t = projBlk V c 2 t) (t : Fin cfg0.N) (d) : dat.before 2 t d = projBlk V c 2 t :=
  (dat.before_in_eq_fetched 2 rfl (fun _ => rfl) (fun _ _ _ => rfl) (fun t => by rw [hafter]; unfold Dat.blockOf projBlk; rw [hA]; try rfl) t d).trans
    (by unfold Dat.fetched Dat.blockOf projBlk; rw [hA]; try rfl)

/-- The whole block of a batch element, -/
abbrev rX : Rect S1x2048x256 := Rect.unit (s := S1x2048x256) ![0, 0, 0] S1x2048x256.size inb_S1x2048x256_S1x2048x256_0_0_0
/-- the whole weight matrix, -/
abbrev rW : Rect S256x256 := Rect.unit (s := S256x256) ![0, 0] S256x256.size inb_S256x256_S256x256_0_0
/-- the whole bias row. -/
abbrev rB : Rect S1x256 := Rect.unit (s := S1x256) ![0, 0] S1x256.size inb_S1x256_S1x256_0_0

/-- What stage one leaves in its output's staging buffer: its one store, over the whole block, of the normalised projection
    of the three blocks it read. -/
def projOut (x : Vec F S1x2048x256 .f32) (w : Vec F S256x256 .f32) (b : Vec F S1x256 .f32) : Vec F S1x2048x256 .bf16 :=
  View.canon [⟨rX, k0_pay1 (View.ld x rX) (View.ld w rW) (View.ld b rB)⟩]

/-- The store covers the buffer. -/
theorem projCover (p0 : Vec F S1x2048x256 .bf16) (y : S1x2048x256.Idx) :
    ∃ pc ∈ ([⟨rX, p0⟩] : List (View.Piece (Elt F) S1x2048x256 .bf16)), y ∈ pc.1.set :=
  View.cover_of_tiled [⟨rX, p0⟩] S1x2048x256.size (by rfl) y

set_option maxHeartbeats 1000000 in
/-- The body of stage one on whole staging buffers, the inputs' at contents `x`, `w`, `b` and the output's at anything,
    runs to the end holding the inputs' as they were and the output's at `projOut x w b`. -/
theorem projKernel (c : Dev nD) (E : Set ℕ) (i : grid0.Coords)
    (arg1 : Memref sig .tc .vmem S1x2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1x2048x256 .bf16) (harg4 : arg4.IsWhole)
    (x : Vec F S1x2048x256 .f32) (w : Vec F S256x256 .f32) (b : Vec F S1x256 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projOut x w b)) -∗ K ⟨⟩))
      ⊢ wp frame (wpE (defs₀ (F := F)) Variants.none c none) E (cc0__proj_norm_kernel i arg1 harg1 arg2 harg2 arg3 harg3 arg4 harg4) K := by
  simp only [cc0__proj_norm_kernel_eq_skeleton]; unfold cc0__proj_norm_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (projCover _)

/-! ## The proof data of stage one -/

/-- At every grid point each input's buffer is left at its block and the output's at `projOut` of the three input blocks;
    nothing else is kept between points. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projBlk V c 2 t
    | ⟨3, _⟩ => projOut (projBlk V c 0 t) (projBlk V c 1 t) (projBlk V c 2 t)
  Φ _ := Pipeline.ΦA spec0 c
  q _ := fullShare
  owed _ := 0

theorem projA (c : Dev nD) (w : Fin cfg0.W) : (projDat V c).A w = V c (Pipeline.arrRef spec0 w) := by
  dsimp only [projDat]
theorem projAfter0 (c : Dev nD) (t : Fin cfg0.N) : (projDat V c).after 0 t = projBlk V c 0 t := by dsimp only [projDat]
theorem projAfter1 (c : Dev nD) (t : Fin cfg0.N) : (projDat V c).after 1 t = projBlk V c 1 t := by dsimp only [projDat]
theorem projAfter2 (c : Dev nD) (t : Fin cfg0.N) : (projDat V c).after 2 t = projBlk V c 2 t := by dsimp only [projDat]
theorem projAfter3 (c : Dev nD) (t : Fin cfg0.N) :
    (projDat V c).after 3 t = projOut (projBlk V c 0 t) (projBlk V c 1 t) (projBlk V c 2 t) := by dsimp only [projDat]

theorem projBefore0 (c : Dev nD) (t : Fin cfg0.N) (d) : (projDat V c).before 0 t d = projBlk V c 0 t :=
  projBefore0_of V (projDat V c) (projA V c 0) (projAfter0 V c) t d
theorem projBefore1 (c : Dev nD) (t : Fin cfg0.N) (d) : (projDat V c).before 1 t d = projBlk V c 1 t :=
  projBefore1_of V (projDat V c) (projA V c 1) (projAfter1 V c) t d
theorem projBefore2 (c : Dev nD) (t : Fin cfg0.N) (d) : (projDat V c).before 2 t d = projBlk V c 2 t :=
  projBefore2_of V (projDat V c) (projA V c 2) (projAfter2 V c) t d

/-- What the body of stage one is called with at point `t`, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d))
    ∗ (∃ d, owns (c : Thread nD τ) (st0_3 t) fullShare ((projDat V c).before 3 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t)
    ∗ owns (c : Thread nD τ) (st0_3 t) fullShare ((projDat V c).after 3 t))

theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore0, projBefore1, projBefore2]
  rw [show (projDat V c).Φ t.succ = (projDat V c).Φ t.castSucc from rfl,
    show (projDat V c).owesAt () t.succ = (projDat V c).owesAt () t.castSucc from rfl,
    projAfter0, projAfter1, projAfter2, projAfter3]
  iintro ⟨HΦ, Ho, ⟨%d0, H0⟩, ⟨%d1, H1⟩, ⟨%d2, H2⟩, ⟨%d3, H3⟩⟩
  iapply (projKernel c Set.univ _ _ _ _ _ _ _ _ _ (projBlk V c 0 t) (projBlk V c 1 t) (projBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of stage one, at every point. -/
theorem projObligation (c : Dev nD) : BodyObligation (projDat (F := F) V c) (defs₀ (F := F)) Variants.none () Set.univ := fun t => by
  rw [bigSep_W0, bigSep_W0]
  exact projBody V c t

/-! # Stage two: the Gram matrix of the normalised rows -/

/-- Window `w`'s block at grid point `t`, read off its array as the stage finds it. -/
def gramBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block stays in its buffer across the two column points of a batch element, -/
theorem gramBefore0_of {c : Dev nD} (dat : Dat τ (Elt F) Unit ℕ (UR sig nD τ) ℕ cfg1 c) (hA : dat.A 0 = V c (Pipeline.arrRef spec1 0))
    (hafter : ∀ t, dat.after 0 t = gramBlk V c 0 t) (t : Fin cfg1.N) (d) : dat.before 0 t d = gramBlk V c 0 t :=
  (dat.before_in_eq_fetched 0 rfl (fun _ => rfl) (fun _ _ _ => rfl) (fun t => by rw [hafter]; unfold Dat.blockOf gramBlk; rw [hA]; try rfl) t d).trans
    (by unfold Dat.fetched Dat.blockOf gramBlk; rw [hA]; try rfl)
/-- and the column block is fetched at every point. -/
theorem gramBefore1_of {c : Dev nD} (dat : Dat τ (Elt F) Unit ℕ (UR sig nD τ) ℕ cfg1 c) (hA : dat.A 1 = V c (Pipeline.arrRef spec1 1))
    (hafter : ∀ t, dat.after 1 t = gramBlk V c 1 t) (t : Fin cfg1.N) (d) : dat.before 1 t d = gramBlk V c 1 t :=
  (dat.before_in_eq_fetched 1 rfl (fun _ => rfl) (fun _ _ _ => rfl) (fun t => by rw [hafter]; unfold Dat.blockOf gramBlk; rw [hA]; try rfl) t d).trans
    (by unfold Dat.fetched Dat.blockOf gramBlk; rw [hA]; try rfl)

/-- The whole row block, -/
abbrev rR : Rect S1x2048x256 := Rect.unit (s := S1x2048x256) ![0, 0, 0] S1x2048x256.size inb_S1x2048x256_S1x2048x256_0_0_0
/-- the whole column block, -/
abbrev rC : Rect S1x1024x256 := Rect.unit (s := S1x1024x256) ![0, 0, 0] S1x1024x256.size inb_S1x1024x256_S1x1024x256_0_0_0
/-- the whole output block. -/
abbrev rG : Rect S1x2048x1024 := Rect.unit (s := S1x2048x1024) ![0, 0, 0] S1x2048x1024.size inb_S1x2048x1024_S1x2048x1024_0_0_0

/-- What stage two leaves in its output's staging buffer: its one store, over the whole block, of the products of the row
    block with the column block. -/
def gramOut (r : Vec F S1x2048x256 .bf16) (k : Vec F S1x1024x256 .bf16) : Vec F S1x2048x1024 .f32 :=
  View.canon [⟨rG, k1_pay1 (View.ld r rR) (View.ld k rC)⟩]

theorem gramCover (p0 : Vec F S1x2048x1024 .f32) (y : S1x2048x1024.Idx) :
    ∃ pc ∈ ([⟨rG, p0⟩] : List (View.Piece (Elt F) S1x2048x1024 .f32)), y ∈ pc.1.set :=
  View.cover_of_tiled [⟨rG, p0⟩] S1x2048x1024.size (by rfl) y

set_option maxHeartbeats 1000000 in
/-- The body of stage two on whole staging buffers, the inputs' at contents `r`, `k` and the output's at anything, runs to
    the end holding the inputs' as they were and the output's at `gramOut r k`. -/
theorem gramKernel (c : Dev nD) (E : Set ℕ) (i : grid1.Coords)
    (arg3 : Memref sig .tc .vmem S1x2048x256 .bf16) (harg3 : arg3.IsWhole) (arg4 : Memref sig .tc .vmem S1x1024x256 .bf16) (harg4 : arg4.IsWhole)
    (arg5 : Memref sig .tc .vmem S1x2048x1024 .f32) (harg5 : arg5.IsWhole)
    (r : Vec F S1x2048x256 .bf16) (k : Vec F S1x1024x256 .bf16) (K : PUnit → sProp 𝕄) :
    iprop(owns (c : Thread nD τ) arg3 fullShare r ∗ owns (c : Thread nD τ) arg4 fullShare k
        ∗ (∃ d, owns (c : Thread nD τ) arg5 fullShare d)
        ∗ (iprop(owns (c : Thread nD τ) arg3 fullShare r ∗ owns (c : Thread nD τ) arg4 fullShare k
            ∗ owns (c : Thread nD τ) arg5 fullShare (gramOut r k)) -∗ K ⟨⟩))
      ⊢ wp frame (wpE (defs₀ (F := F)) Variants.none c none) E (cc1__gram_kernel i arg3 harg3 arg4 harg4 arg5 harg5) K := by
  simp only [cc1__gram_kernel_eq_skeleton]; unfold cc1__gram_kernel_skel
  unfold owns
  iintro ⟨⟨%f3, %hf3, H3⟩, ⟨%f4, %hf4, H4⟩, ⟨%d5, %f5, -, H5⟩, Hk⟩
  subst hf3; subst hf4
  sl_exec
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (gramCover _)

/-! ## The proof data of stage two -/

/-- The two input windows read one array, the normalised rows: each holds half of it (the left and the right half of the
    full share); the output's array is held whole. -/
def gramDat (c : Dev nD) : Dat τ (Elt F) Unit ℕ (UR sig nD τ) ℕ cfg1 c where
  A w := V c (Pipeline.arrRef spec1 w)
  after w t := match w with
    | ⟨0, _⟩ => gramBlk V c 0 t
    | ⟨1, _⟩ => gramBlk V c 1 t
    | ⟨2, _⟩ => gramOut (gramBlk V c 0 t) (gramBlk V c 1 t)
  Φ _ := Pipeline.ΦA spec1 c
  q w := match w with
    | ⟨0, _⟩ => fullShare.left
    | ⟨1, _⟩ => fullShare.right
    | ⟨2, _⟩ => fullShare
  owed _ := 0

theorem gramA (c : Dev nD) (w : Fin cfg1.W) : (gramDat V c).A w = V c (Pipeline.arrRef spec1 w) := by
  dsimp only [gramDat]
theorem gramAfter0 (c : Dev nD) (t : Fin cfg1.N) : (gramDat V c).after 0 t = gramBlk V c 0 t := by dsimp only [gramDat]
theorem gramAfter1 (c : Dev nD) (t : Fin cfg1.N) : (gramDat V c).after 1 t = gramBlk V c 1 t := by dsimp only [gramDat]
theorem gramAfter2 (c : Dev nD) (t : Fin cfg1.N) :
    (gramDat V c).after 2 t = gramOut (gramBlk V c 0 t) (gramBlk V c 1 t) := by dsimp only [gramDat]

theorem gramBefore0 (c : Dev nD) (t : Fin cfg1.N) (d) : (gramDat V c).before 0 t d = gramBlk V c 0 t :=
  gramBefore0_of V (gramDat V c) (gramA V c 0) (gramAfter0 V c) t d
theorem gramBefore1 (c : Dev nD) (t : Fin cfg1.N) (d) : (gramDat V c).before 1 t d = gramBlk V c 1 t :=
  gramBefore1_of V (gramDat V c) (gramA V c 1) (gramAfter1 V c) t d

def gramPre (c : Dev nD) (t : Fin cfg1.N) : sProp 𝕄 :=
  iprop((gramDat V c).Φ t.castSucc ∗ (gramDat V c).owesAt () t.castSucc
    ∗ (∃ d, owns (c : Thread nD τ) (st1_0 t) fullShare ((gramDat V c).before 0 t d))
    ∗ (∃ d, owns (c : Thread nD τ) (st1_1 t) fullShare ((gramDat V c).before 1 t d))
    ∗ (∃ d, owns (c : Thread nD τ) (st1_2 t) fullShare ((gramDat V c).before 2 t d)))

def gramPost (c : Dev nD) (t : Fin cfg1.N) : sProp 𝕄 :=
  iprop((gramDat V c).Φ t.succ ∗ (gramDat V c).owesAt () t.succ
    ∗ owns (c : Thread nD τ) (st1_0 t) fullShare ((gramDat V c).after 0 t)
    ∗ owns (c : Thread nD τ) (st1_1 t) fullShare ((gramDat V c).after 1 t)
    ∗ owns (c : Thread nD τ) (st1_2 t) fullShare ((gramDat V c).after 2 t))

theorem gramBody (c : Dev nD) (t : Fin cfg1.N) :
    gramPre V c t ⊢ wp frame (wpE (defs₀ (F := F)) Variants.none c none) Set.univ (bodyAt1 t) (fun _ => gramPost V c t) := by
  unfold gramPre gramPost bodyAt1
  simp only [gramBefore0, gramBefore1]
  rw [show (gramDat V c).Φ t.succ = (gramDat V c).Φ t.castSucc from rfl,
    show (gramDat V c).owesAt () t.succ = (gramDat V c).owesAt () t.castSucc from rfl,
    gramAfter0, gramAfter1, gramAfter2]
  iintro ⟨HΦ, Ho, ⟨%d0, H0⟩, ⟨%d1, H1⟩, ⟨%d2, H2⟩⟩
  iapply (gramKernel c Set.univ _ _ _ _ _ _ _ (gramBlk V c 0 t) (gramBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of stage two, at every point. -/
theorem gramObligation (c : Dev nD) : BodyObligation (gramDat (F := F) V c) (defs₀ (F := F)) Variants.none () Set.univ := fun t => by
  rw [bigSep_W1, bigSep_W1]
  exact gramBody V c t

end Cert.KernelIdeal.Stages

end
-- ==== Proof.IdealRun.lean ====
/-
  The whole program run from the launch to the return: the bias reshaped to a row on the host, stage one, stage two.

  Between the items every buffer that outlives a kernel holds a named value: the launch memory; then the bias row added;
  then the normalised rows as stage one's write-backs leave them; then the Gram matrix as stage two's write-backs leave it.
  Stage two reads the normalised rows through two windows at once, so it holds that array as two halves of the full share,
  split at its entry and joined at its exit. No item writes an argument, so each argument ends as launched, and the result
  array ends at stage two's folded write-backs over stage one's.
-/
import proofs.«136326_j40570261078386_2_alg».proof.Proof.IdealStages

set_option maxRecDepth 16384

noncomputable section

namespace Cert.KernelIdeal.Run

open Cert.KernelIdeal Cert.KernelIdeal.Gen Cert.KernelIdeal.Stages
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev B0 : Dev nD → Valuation τ sig (Elt F) := fun c b => (s₀ m ρ).mem ((c : Dev nD), b)
/-- After the host reshapes the bias to a row (stage one's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After stage one: its arrays at what its write-backs leave, every other buffer as entered. -/
def B2 (c : Dev nD) : Valuation τ sig (Elt F) :=
  Pipeline.withArrays spec0 c (B1 m ρ c) fun w => (projDat (E1 m ρ) c).arrAt w cfg0.N
theorem B2_arr (c : Dev nD) (w : Fin cfg0.W) :
    B2 m ρ c (Proc.devRef .tc (Pipeline.arrRef spec0 w)) = (projDat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem projExit (c : Dev nD) (w : Fin cfg0.W) : (projDat (E1 m ρ) c).arrAt w cfg0.N = E2 m ρ c (Pipeline.arrRef spec0 w) :=
  (B2_arr m ρ c w).symm
theorem projRest (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After stage two: the result array at what its write-backs leave, every other buffer as entered (the normalised rows
    are only read). -/
def B3 (c : Dev nD) : Valuation τ sig (Elt F) :=
  Function.update (B2 m ρ c) main_v2 ((gramDat (E2 m ρ) c).arrAt 2 cfg1.N)
abbrev E3 : (c : Dev nD) → (b : Ref sig .tc) → Buf (Elt F) ((c : Thread nD τ).loc b) := fun c b => B3 m ρ c b
theorem B3_out (c : Dev nD) : B3 m ρ c main_v2 = (gramDat (E2 m ρ) c).arrAt 2 cfg1.N := by
  unfold B3; exact Function.update_self ..
theorem B3_of_ne (c : Dev nD) (b : Ref sig .tc) (hb : b ≠ main_v2) : B3 m ρ c (Proc.devRef .tc b) = B2 m ρ c (Proc.devRef .tc b) := by
  unfold B3; exact Function.update_of_ne (StableHlo.devRef_ne_of_ne hb) ..

/-! ### The arguments end as launched -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := (B2_arr m ρ c 0).trans (((projDat (E1 m ρ) c).arrAt_in 0 rfl _).trans (projA (E1 m ρ) c 0))
    _ = B0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := (B2_arr m ρ c 1).trans (((projDat (E1 m ρ) c).arrAt_in 1 rfl _).trans (projA (E1 m ρ) c 1))
    _ = B0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl

/-! ## The proof data of both stages, and what rides beside the buffers -/

abbrev adm : (p : Fin 2) → (pcfgs (F := F) p).Adm := fun p => (cfgs p).toPCfg_adm
/-- Each stage's proof data at the contents it is entered from. -/
def pdats : (p : Fin 2) → (c : Dev nD) → Dat τ (Elt F) Unit ℕ (UR sig nD τ) ℕ (Pipeline.pin (pcfgs (F := F)) adm p) c
  | ⟨0, _⟩ => fun c => projDat (E1 m ρ) c
  | ⟨1, _⟩ => fun c => gramDat (E2 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of the buffers. -/
abbrev Tₙ (c : Dev nD) : sProp 𝕄 := iprop(StableHlo.held (c : Thread nD τ) (Pipeline.ucRefs τ sig) (B3 m ρ c) ∗ ∃ r, prngReg c r)

/-! ## Stage two's arrays: one array behind two windows -/

/-- The arrays stage two is handed are the normalised rows and the result. -/
theorem gramArrs : (Finset.univ.image (Pipeline.arrRef spec1) : Finset (Ref sig .tc)) = {main_v1, main_v2} := by decide

/-- Stage two's arrays at contents `Fv`, spelt out: the normalised rows twice, at the left and the right half of the full
    share, and the result whole. -/
theorem gramArrays_eq (V : (c : Dev nD) → (b : Ref sig .tc) → Buf (Elt F) ((c : Thread nD τ).loc b)) (c : Dev nD)
    (Fv : (w : Fin cfg1.W) → Buf (Elt F) ((cfg1.win w).arr.view.loc (c : Thread nD τ))) :
    ((gramDat V c).arrays Fv : sProp 𝕄)
      = iprop((((c : Thread nD τ).loc main_v1) ↦{fullShare.left} Fv 0) ∗ (((c : Thread nD τ).loc main_v1) ↦{fullShare.right} Fv 1)
          ∗ (((c : Thread nD τ).loc main_v2) ↦{fullShare} Fv 2)) := by
  unfold Pipeline.Dat.arrays
  rw [bigSep_W1, (arr_whole1 0).set_eq_univ, (arr_whole1 2).set_eq_univ]
  rfl

/-- The buffers behind stage two's arrays, spelt out: the normalised rows and the result, each whole. -/
theorem gramArrBufs (c : Dev nD) (V : (b : Ref sig .tc) → Buf (Elt F) ((c : Thread nD τ).loc b)) :
    (Pipeline.arrBufs (Ix := Unit) (Name := ℕ) (U := UR sig nD τ) (Lvl := ℕ) (cfgs 1).spec c V : sProp 𝕄)
      = iprop((((c : Thread nD τ).loc main_v1) ↦{fullShare} V main_v1) ∗ (((c : Thread nD τ).loc main_v2) ↦{fullShare} V main_v2)) := by
  unfold Pipeline.arrBufs
  rw [show (Finset.image (Pipeline.arrRef (cfgs 1).spec) Finset.univ : Finset (Ref sig .tc)) = {main_v1, main_v2} from gramArrs, bigSep_insert (by decide), bigSep_singleton]
  rfl

/-- ENTRY of stage two: the buffers split into its arrays — the normalised rows halved between the two windows — and the rest. -/
theorem gramSplit (c : Dev nD) :
    (unscopedBufs c (E2 m ρ c) : sProp 𝕄)
      ⊢ iprop((gramDat (E2 m ρ) c).arrays ((gramDat (E2 m ρ) c).arrAt · 0) ∗ Pipeline.unscopedRest (Ix := Unit) (Name := ℕ) (U := UR sig nD τ) (Lvl := ℕ) spec1 c (E2 m ρ c)) := by
  rw [Pipeline.unscopedBufs_split₀ cfgs 1 winFacts₀1.arr_unscoped c (E2 m ρ c), gramArrays_eq]
  refine sep_mono ?_ .rfl
  rw [gramArrBufs]
  iintro ⟨H1, H2⟩
  ihave H1 := (pointsTo_share (PosShare.mem_left_op_right fullShare)).1 $$ H1
  icases H1 with ⟨Ha, Hb⟩
  isplitl [Ha]; · iexact Ha
  isplitl [Hb]; · iexact Hb
  iexact H2

/-- EXIT of stage two: its arrays — the two halves of the normalised rows, both still at the entry contents, and the result
    at its final contents — and the rest make the buffers at the contents after the stage. -/
theorem gramJoin (c : Dev nD) :
    iprop((gramDat (E2 m ρ) c).arrays ((gramDat (E2 m ρ) c).arrAt · cfg1.N) ∗ Pipeline.unscopedRest (Ix := Unit) (Name := ℕ) (U := UR sig nD τ) (Lvl := ℕ) spec1 c (E2 m ρ c))
      ⊢ (unscopedBufs c (E3 m ρ c) : sProp 𝕄) := by
  rw [Pipeline.unscopedBufs_split₀ cfgs 1 winFacts₀1.arr_unscoped c (E3 m ρ c), gramArrays_eq]
  have h0 : (gramDat (E2 m ρ) c).arrAt 0 cfg1.N = E3 m ρ c main_v1 :=
    (((gramDat (E2 m ρ) c).arrAt_in 0 rfl _).trans (gramA (E2 m ρ) c 0)).trans (B3_of_ne m ρ c main_v1 (by decide)).symm
  have h1 : (gramDat (E2 m ρ) c).arrAt 1 cfg1.N = E3 m ρ c main_v1 :=
    (((gramDat (E2 m ρ) c).arrAt_in 1 rfl _).trans (gramA (E2 m ρ) c 1)).trans (B3_of_ne m ρ c main_v1 (by decide)).symm
  have h2 : (gramDat (E2 m ρ) c).arrAt 2 cfg1.N = E3 m ρ c main_v2 := (B3_out m ρ c).symm
  rw [h0, h1, h2]
  refine sep_mono ?_ (Entails.of_eq ?_)
  · rw [gramArrBufs]
    iintro ⟨Ha, Hb, H2⟩
    isplitl [Ha Hb]
    · iapply (pointsTo_share (PosShare.mem_left_op_right fullShare)).2
      isplitl [Ha] <;> iassumption
    iexact H2
  · unfold Pipeline.unscopedRest
    refine bigSep_congr fun b hb => ?_
    have hne : b ≠ main_v2 := fun e => (Finset.mem_sdiff.mp hb).2 (by rw [gramArrs, e]; decide)
    rw [show E3 m ρ c b = E2 m ρ c b from B3_of_ne m ρ c b hne]

/-! ## The stages as items of the program -/

set_option backward.isDefEq.respectTransparency.types false in
/-- Stage one: entered from the buffers after the host's reshape, left at stage one's write-backs. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (projObligation (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (projExit m ρ c) (projRest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage two: entered from the buffers after stage one, left at the last state; the normalised rows halved between its two
    input windows on the way in and joined again on the way out. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (gramObligation (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit : (unscopedBufs c (E2 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (E2 m ρ c)) :=
      gramSplit m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (E2 m ρ c))
        ⊢ (unscopedBufs c (E3 m ρ c) : sProp 𝕄) := gramJoin m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the run -/

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` terminates, nothing faulting; at the end the result array
    holds stage two's write-backs folded over the normalised rows stage one wrote, and each argument array is as launched. -/
theorem run : θ_run defs (onTc (τ := τ) (main (F := F))) ⟨m, fun _ => 0, ρ⟩ (fun r => ∀ c : Dev nD,
      r.2.mem ((c.tc : Thread nD τ).loc main_v2) = (gramDat (E2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c =>
      ⟨(h c _ (mem_uc main_v2 (by decide))).trans (B3_out m ρ c),
       (h c _ (mem_uc main_arg0 (by decide))).trans (B3_main_arg0 m ρ c),
       (h c _ (mem_uc main_arg1 (by decide))).trans (B3_main_arg1 m ρ c),
       (h c _ (mem_uc main_arg2 (by decide))).trans (B3_main_arg2 m ρ c)⟩)

end Cert.KernelIdeal.Run

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.Payloads.lean ====
/-
  What each kernel stores, read at one entry, on the extended reals.

  Stage one, for the block x (one batch element, 2048 rows of 256 features), the weight matrix w and the bias row b:
    p (n, e)  = Σ_k x (n, k) · w (e, k) + b (e)          (a product with both operands contracted on their second axis)
    stored (n, e) = p (n, e) · rsqrt (Σ_e' p (n, e')²)   (the row's sum of squares kept as a column and repeated across the row)
  A change of float format is the identity here, so the two roundings to bf16 do not appear.

  Stage two, for a row block r (2048 rows) and a column block k (1024 rows) of the normalised rows:
    stored (n, q) = Σ_d r (n, d) · k (q, d).
-/
import proofs.«136326_j40570261078386_2_alg».proof.Proof.Gen.KernelIdeal.Skeleton
import proofs.«136326_j40570261078386_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- Stage one's product: 2048×256 by 256×256, both contracted on their second axis. -/
abbrev dP : DotDims S2048x256 S256x256 S2048x256 := dot_S2048x256_S256x256_S2048x256_1_1_0_0_n_n
/-- Stage two's product: 2048×256 by 1024×256, both contracted on their second axis. -/
abbrev dG : DotDims S2048x256 S1024x256 S2048x1024 := dot_S2048x256_S1024x256_S2048x1024_1_1_0_0_n_n

/-! ## Where the products' index maps point -/

theorem dP_l0 (j : S2048x256.Idx) (q : dP.contr.Idx) : (dP.lhsIdx j q 0).val = (j 0).val := by
  unfold DotDims.lhsIdx
  rw [dif_neg (show ¬(0 : Fin S2048x256.rank) ∈ dP.lhsBatch by decide), dif_pos (show (0 : Fin S2048x256.rank) ∈ dP.lhsNonContracting by decide)]
  rfl
theorem dP_l1 (j : S2048x256.Idx) (q : dP.contr.Idx) : (dP.lhsIdx j q 1).val = (q ⟨0, by decide⟩).val :=
  dP.lhsIdx_val_of_single rfl j q
theorem dP_r0 (j : S2048x256.Idx) (q : dP.contr.Idx) : (dP.rhsIdx j q 0).val = (j 1).val := by
  unfold DotDims.rhsIdx
  rw [dif_neg (show ¬(0 : Fin S256x256.rank) ∈ dP.rhsBatch by decide), dif_pos (show (0 : Fin S256x256.rank) ∈ dP.rhsNonContracting by decide)]
  rfl
theorem dP_r1 (j : S2048x256.Idx) (q : dP.contr.Idx) : (dP.rhsIdx j q 1).val = (q ⟨0, by decide⟩).val :=
  dP.rhsIdx_val_of_single rfl j q

theorem dG_l0 (j : S2048x1024.Idx) (q : dG.contr.Idx) : (dG.lhsIdx j q 0).val = (j 0).val := by
  unfold DotDims.lhsIdx
  rw [dif_neg (show ¬(0 : Fin S2048x256.rank) ∈ dG.lhsBatch by decide), dif_pos (show (0 : Fin S2048x256.rank) ∈ dG.lhsNonContracting by decide)]
  rfl
theorem dG_l1 (j : S2048x1024.Idx) (q : dG.contr.Idx) : (dG.lhsIdx j q 1).val = (q ⟨0, by decide⟩).val :=
  dG.lhsIdx_val_of_single rfl j q
theorem dG_r0 (j : S2048x1024.Idx) (q : dG.contr.Idx) : (dG.rhsIdx j q 0).val = (j 1).val := by
  unfold DotDims.rhsIdx
  rw [dif_neg (show ¬(0 : Fin S1024x256.rank) ∈ dG.rhsBatch by decide), dif_pos (show (0 : Fin S1024x256.rank) ∈ dG.rhsNonContracting by decide)]
  rfl
theorem dG_r1 (j : S2048x1024.Idx) (q : dG.contr.Idx) : (dG.rhsIdx j q 1).val = (q ⟨0, by decide⟩).val :=
  dG.rhsIdx_val_of_single rfl j q

/-! ## Stage one -/

section One
variable (x : FVec Ideal S1x2048x256 .f32) (w : FVec Ideal S256x256 .f32) (b : FVec Ideal S1x256 .f32)

/-- One projected entry of the block: row `n` of `x` against row `e` of `w`, plus the bias at `e`. -/
def rowP (n : Fin 2048) (e : Fin 256) : EReal :=
  (∑ k : Fin 256, x (ix3 (0 : Fin 1) n k) * w (ix2 e k)) + b (ix2 (0 : Fin 1) e)

/-- The projection as the body computes it. -/
def projVec : FVec Ideal S2048x256 .f32 :=
  addf (matmul dP none (truncf .bf16 (shapeCast S2048x256 x shapeCasts_S1x2048x256_S2048x256) bitsLt_bf16_f32) (truncf .bf16 w bitsLt_bf16_f32) (constant S2048x256 .f32 0x00000000#32))
    (broadcastTo S2048x256 (shapeCast S1x256 b shapeCasts_S1x256_S1x256) broadcasts_S1x256_S2048x256)

theorem projVec_apply (n : Fin 2048) (e : Fin 256) : projVec x w b (ix2 n e) = rowP x w b n e := by
  unfold projVec rowP
  refine (addf_apply _ _ _).trans (congrArg₂ (· + ·) ?_ ?_)
  · refine (Cert.RowOps.matmul_nt_apply dP none rfl rfl dP_l0 dP_l1 dP_r0 dP_r1 _ _ n e).trans ?_
    exact Finset.sum_congr rfl fun k _ => congrArg₂ (· * ·) (shapeCast_1ab_ab_apply x _ n k) rfl
  · refine (broadcastTo_1b_ab_apply _ _ n e).trans ?_
    exact congrFun (shapeCast_self b _) _

/-- What stage one stores, at row `n` and feature `e` of its block. -/
theorem projPay_apply (u : Fin 1) (n : Fin 2048) (e : Fin 256) :
    k0_pay1 (F := Ideal) x w b (ix3 u n e) = rowP x w b n e * Ideal.rsqrt (∑ e' : Fin 256, rowP x w b n e' * rowP x w b n e') := by
  have hpay : k0_pay1 (F := Ideal) x w b
      = shapeCast S1x2048x256 (truncf .bf16 (mulf (projVec x w b) (broadcastTo S2048x256 (rsqrt (shapeCast S2048x1
          (multiReduction .add [1] S2048 (mulf (projVec x w b) (projVec x w b)) 0x00000000#32 reduces_S2048x256_S2048 (.inl rfl) rfl)
          shapeCasts_S2048_S2048x1)) broadcasts_S2048x1_S2048x256)) bitsLt_bf16_f32) shapeCasts_S2048x256_S1x2048x256 := rfl
  rw [hpay]
  refine (shapeCast_ab_1ab_apply _ _ u n e).trans ?_
  refine (mulf_apply _ _ _).trans (congrArg₂ (· * ·) (projVec_apply x w b n e) ?_)
  refine (Cert.RowOps.broadcastTo_a1_ab_apply _ _ n e).trans ?_
  refine congrArg Ideal.rsqrt ?_
  refine (Cert.RowOps.shapeCast_a_a1_apply _ _ n 0).trans ?_
  refine (Cert.RowOps.rowSum_apply _ _ _ _ _ n).trans ?_
  exact Finset.sum_congr rfl fun k _ => (mulf_apply _ _ _).trans (congrArg₂ (· * ·) (projVec_apply x w b n k) (projVec_apply x w b n k))

end One

/-! ## Stage two -/

/-- What stage two stores, at row `n` of the row block against row `q` of the column block. -/
theorem gramPay_apply (r : FVec Ideal S1x2048x256 .bf16) (k : FVec Ideal S1x1024x256 .bf16) (u : Fin 1) (n : Fin 2048) (q : Fin 1024) :
    k1_pay1 (F := Ideal) r k (ix3 u n q) = ∑ d : Fin 256, r (ix3 (0 : Fin 1) n d) * k (ix3 (0 : Fin 1) q d) := by
  have hpay : k1_pay1 (F := Ideal) r k
      = shapeCast S1x2048x1024 (matmul dG none (shapeCast S2048x256 r shapeCasts_S1x2048x256_S2048x256) (shapeCast S1024x256 k shapeCasts_S1x1024x256_S1024x256)
          (constant S2048x1024 .f32 0x00000000#32)) shapeCasts_S2048x1024_S1x2048x1024 := rfl
  rw [hpay]
  refine (shapeCast_ab_1ab_apply _ _ u n q).trans ?_
  refine (Cert.RowOps.matmul_nt_apply dG none rfl rfl dG_l0 dG_l1 dG_r0 dG_r1 _ _ n q).trans ?_
  exact Finset.sum_congr rfl fun d _ => congrArg₂ (· * ·) (shapeCast_1ab_ab_apply r _ n d) (shapeCast_1ab_ab_apply k _ q d)

end Cert.KernelIdeal.Payload

end
-- ==== Proof.Cosine.lean ====
/-
  The result as one function of the three argument arrays, on the extended reals.

    p (b, n, e)  = Σ_k X (b, n, k) · W (e, k) + B (e)            the projection
    s (b, n)     = Σ_e p (b, n, e)²                             a row's sum of squares
    u (b, n, e)  = p (b, n, e) / √(s (b, n))                    the row scaled to unit length
    G (b, n, m)  = Σ_d u (b, n, d) · u (b, m, d)                the cosine of rows n and m

  The kernel scales a row by the reciprocal square root of s, the reference divides it by the square root of s. For every
  positive extended real s — a positive real, or +∞ where both sides are 0 — and every extended real x,
  x · rsqrt s = x / √s; at s = 0 the two conventions differ (x · (+∞) against a quotient by zero), which is why the
  rows' sums of squares are assumed positive. No finiteness of x is used.
-/
import Idealize.ShloMosaic.PureOps.Ideal.Laws
import Idealize.ShloMosaic.Lib.ValueIdx

noncomputable section

open scoped BigOperators

namespace Cert.Cosine

open Idealize.ShloMosaic Idealize.ShloMosaic.ValueIdx

/-- Scaling by the reciprocal square root is dividing by the square root, for a positive sum of squares. -/
theorem mul_rsqrt_eq_div_sqrt (x s : EReal) (hs : 0 < s) : x * Ideal.rsqrt s = Ideal.div x (Ideal.sqrt s) := by
  induction s using EReal.rec with
  | bot => exact absurd hs (by simp)
  | top =>
    rw [Ideal.rsqrt_top, Ideal.sqrt_top, mul_zero, Ideal.div, if_neg EReal.top_ne_zero, EReal.inv_top, mul_zero]
  | coe r =>
    have hr : 0 < r := by exact_mod_cast hs
    have hsq : Real.sqrt r ≠ 0 := (Real.sqrt_pos.2 hr).ne'
    rw [Ideal.rsqrt_coe, Ideal.sqrt_coe, if_neg (not_lt.2 hr.le), if_neg hr.ne', if_neg (not_lt.2 hr.le), Ideal.div,
      if_neg (by exact_mod_cast hsq), EReal.coe_inv]

variable (X : (⟨3, ![16, 2048, 256]⟩ : Shape).Idx → EReal) (W : (⟨2, ![256, 256]⟩ : Shape).Idx → EReal) (B : Fin 256 → EReal)

/-- The projection of row `n` of batch element `b` onto output feature `e`. -/
def proj (b : Fin 16) (n : Fin 2048) (e : Fin 256) : EReal := (∑ k : Fin 256, X (ix3 b n k) * W (ix2 e k)) + B e
/-- The sum of squares of a projected row. -/
def sumsq (b : Fin 16) (n : Fin 2048) : EReal := ∑ e : Fin 256, proj X W B b n e * proj X W B b n e
/-- The row scaled as the kernel scales it, -/
def unitK (b : Fin 16) (n : Fin 2048) (e : Fin 256) : EReal := proj X W B b n e * Ideal.rsqrt (sumsq X W B b n)
/-- and as the reference scales it. -/
def unitR (b : Fin 16) (n : Fin 2048) (e : Fin 256) : EReal := Ideal.div (proj X W B b n e) (Ideal.sqrt (sumsq X W B b n))
/-- The matrix of products of the scaled rows, the kernel's way -/
def gramK (b : Fin 16) (n m : Fin 2048) : EReal := ∑ d : Fin 256, unitK X W B b n d * unitK X W B b m d
/-- and the reference's. -/
def gramR (b : Fin 16) (n m : Fin 2048) : EReal := ∑ d : Fin 256, unitR X W B b n d * unitR X W B b m d

theorem unitK_eq_unitR (h : ∀ b n, 0 < sumsq X W B b n) (b : Fin 16) (n : Fin 2048) (e : Fin 256) : unitK X W B b n e = unitR X W B b n e :=
  mul_rsqrt_eq_div_sqrt _ _ (h b n)

/-- Where every row's sum of squares is positive the two matrices are one. -/
theorem gramK_eq_gramR (h : ∀ b n, 0 < sumsq X W B b n) (b : Fin 16) (n m : Fin 2048) : gramK X W B b n m = gramR X W B b n m :=
  Finset.sum_congr rfl fun d _ => by rw [unitK_eq_unitR X W B h, unitK_eq_unitR X W B h]

end Cert.Cosine

end
-- ==== Proof.IdealArrays.lean ====
/-
  From blocks to arrays, on the extended reals.

  Stage one's grid point t handles batch element t: it writes back block [t, :, :] of the normalised rows, computed from
  block [t, :, :] of the input, the whole weight matrix and the whole bias row. The sixteen blocks tile the array, so after
  the stage the array of normalised rows is ONE function of the three arrays the stage found: entry (b, n, e) is the
  projection p (b, n, e) scaled by the reciprocal square root of row (b, n)'s sum of squares.

  Stage two's grid point (b, 0, j) writes back block [b, :, 1024 j ..] of the result from rows [b, :, :] and rows
  [b, 1024 j .., :] of the normalised rows. The thirty-two blocks tile the result, so after the stage entry (b, n, m) of the
  result is Σ_d U (b, n, d) · U (b, m, d) of the array U the stage found.
-/
import proofs.«136326_j40570261078386_2_alg».proof.Proof.IdealStages
import proofs.«136326_j40570261078386_2_alg».proof.Proof.Payloads
import proofs.«136326_j40570261078386_2_alg».proof.Proof.Cosine
import Idealize.ShloMosaic.Lib.Pipeline.Value

set_option maxRecDepth 16384

noncomputable section

open scoped BigOperators

namespace Cert.KernelIdeal.Arrays

open Cert.KernelIdeal Cert.KernelIdeal.Gen Cert.KernelIdeal.Stages Cert.KernelIdeal.Payload Cert.Cosine
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! # Stage one -/

/-- The normalised rows as one function of the input, the weights and the bias row. -/
def unitArr (X : S16x2048x256.Idx → EReal) (W : S256x256.Idx → EReal) (Bq : S1x256.Idx → EReal) : S16x2048x256.Idx → EReal :=
  fun i => unitK X W (fun e => Bq (ix2 (0 : Fin 1) e)) (i 0) (i 1) (i 2)

/-- The printed index maps over the grid: point `t` takes batch block `t` of the input and of the output, the weights and
    the bias whole. -/
theorem proj_idx : ∀ t : Fin cfg0.N, win0_0.index t (0 : Fin 3) = win0_3.index t (0 : Fin 3) ∧ win0_0.index t (1 : Fin 3) = 0
    ∧ win0_0.index t (2 : Fin 3) = 0 ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0 ∧ win0_3.index t (0 : Fin 3) ≤ 15 :=
  (by decide +kernel : ∀ t : Fin grid0.N, _)

/-- Every batch element is some point's. -/
theorem proj_onto : ∀ q0 : Fin 16, ∃ t : Fin cfg0.N, win0_3.index t = ![q0.val, 0, 0] :=
  (by decide +kernel : ∀ q0 : Fin 16, ∃ t : Fin grid0.N, win0_3.index t = ![q0.val, 0, 0])

/-- The input block of point `t` is batch element `t` of the input, -/
theorem projBlk0_apply (c : Dev nD) (t : Fin cfg0.N) (bt : Fin 16) (hbt : win0_3.index t (0 : Fin 3) = bt.val) (n : Fin 2048) (k : Fin 256) :
    projBlk V c 0 t (ix3 (0 : Fin 1) n k) = V c main_arg0 (ix3 bt n k) := by
  obtain ⟨e0, e1, e2, e3, e4, e5, e6, e7, e8, e9⟩ := proj_idx t
  show V c main_arg0 (((cfg0.win 0).blk t).view.emb (ix3 (0 : Fin 1) n k)) = V c main_arg0 (ix3 bt n k)
  refine congrArg _ (funext fun a => Fin.ext ?_)
  match a with
  | ⟨0, _⟩ => show win0_0.index t (0 : Fin 3) * 1 + 1 * 0 = bt.val; omega
  | ⟨1, _⟩ => show win0_0.index t (1 : Fin 3) * 2048 + 1 * n.val = n.val; omega
  | ⟨2, _⟩ => show win0_0.index t (2 : Fin 3) * 256 + 1 * k.val = k.val; omega
/-- the weight block is the weight matrix, -/
theorem projBlk1_apply (c : Dev nD) (t : Fin cfg0.N) (e k : Fin 256) :
    projBlk V c 1 t (ix2 e k) = V c main_arg1 (ix2 e k) := by
  obtain ⟨e0, e1, e2, e3, e4, e5, e6, e7, e8, e9⟩ := proj_idx t
  show V c main_arg1 (((cfg0.win 1).blk t).view.emb (ix2 e k)) = V c main_arg1 (ix2 e k)
  refine congrArg _ (funext fun a => Fin.ext ?_)
  match a with
  | ⟨0, _⟩ => show win0_1.index t (0 : Fin 2) * 256 + 1 * e.val = e.val; omega
  | ⟨1, _⟩ => show win0_1.index t (1 : Fin 2) * 256 + 1 * k.val = k.val; omega
/-- and the bias block the bias row. -/
theorem projBlk2_apply (c : Dev nD) (t : Fin cfg0.N) (e : Fin 256) :
    projBlk V c 2 t (ix2 (0 : Fin 1) e) = V c main_v0 (ix2 (0 : Fin 1) e) := by
  obtain ⟨e0, e1, e2, e3, e4, e5, e6, e7, e8, e9⟩ := proj_idx t
  show V c main_v0 (((cfg0.win 2).blk t).view.emb (ix2 (0 : Fin 1) e)) = V c main_v0 (ix2 (0 : Fin 1) e)
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * e.val = e.val; omega

/-- A projected entry of point `t`'s block is the projection of batch element `t`. -/
theorem rowP_blk (c : Dev nD) (t : Fin cfg0.N) (bt : Fin 16) (hbt : win0_3.index t (0 : Fin 3) = bt.val) (n : Fin 2048) (e : Fin 256) :
    rowP (projBlk V c 0 t) (projBlk V c 1 t) (projBlk V c 2 t) n e
      = proj (V c main_arg0) (V c main_arg1) (fun e => V c main_v0 (ix2 (0 : Fin 1) e)) bt n e := by
  unfold rowP proj
  refine congrArg₂ (· + ·) (Finset.sum_congr rfl fun k _ => congrArg₂ (· * ·) (projBlk0_apply V c t bt hbt n k) (projBlk1_apply V c t e k))
    (projBlk2_apply V c t e)

/-- What point `t` stores, at an entry of its block, is the normalised row entry of the whole-array function there. -/
theorem projStored_apply (c : Dev nD) (t : Fin cfg0.N) (j : S1x2048x256.Idx) :
    projOut (projBlk V c 0 t) (projBlk V c 1 t) (projBlk V c 2 t) j
      = unitArr (V c main_arg0) (V c main_arg1) (V c main_v0) (((cfg0.win 3).blk t).view.emb j) := by
  obtain ⟨u, n, e, rfl⟩ : ∃ (u : Fin 1) (n : Fin 2048) (e : Fin 256), j = ix3 u n e := ⟨j 0, j 1, j 2, eq_ix3 j⟩
  obtain ⟨e0, e1, e2, e3, e4, e5, e6, e7, e8, e9⟩ := proj_idx t
  have hemb : ((cfg0.win 3).blk t).view.emb (ix3 u n e) = ix3 (⟨win0_3.index t (0 : Fin 3), by omega⟩ : Fin 16) n e :=
    funext fun a => Fin.ext (by
      match a with
      | ⟨0, _⟩ => show win0_3.index t (0 : Fin 3) * 1 + 1 * u.val = win0_3.index t (0 : Fin 3); omega
      | ⟨1, _⟩ => show win0_3.index t (1 : Fin 3) * 2048 + 1 * n.val = n.val; omega
      | ⟨2, _⟩ => show win0_3.index t (2 : Fin 3) * 256 + 1 * e.val = e.val; omega)
  rw [hemb]
  unfold projOut
  rw [View.canon_unit_zero hz3]
  simp only [View.ld_unit_zero (S := S1x2048x256) hz3, View.ld_unit_zero (S := S256x256) hz2, View.ld_unit_zero (S := S1x256) hz2]
  refine (projPay_apply (projBlk V c 0 t) (projBlk V c 1 t) (projBlk V c 2 t) u n e).trans ?_
  show _ = unitK _ _ _ (⟨win0_3.index t (0 : Fin 3), by omega⟩ : Fin 16) n e
  unfold unitK sumsq
  rw [rowP_blk V c t ⟨win0_3.index t (0 : Fin 3), by omega⟩ rfl n e]
  refine congrArg₂ (· * ·) rfl (congrArg Ideal.rsqrt (Finset.sum_congr rfl fun k _ => ?_))
  rw [rowP_blk V c t ⟨win0_3.index t (0 : Fin 3), by omega⟩ rfl n k]

/-- WHAT POINT `t` WRITES BACK is block `t` of the whole-array function. -/
theorem projFlushed (c : Dev nD) (t : Fin cfg0.N) :
    (projDat V c).flushed 3 t = ((cfg0.win 3).blk t).view.read (Elt Ideal) (unitArr (V c main_arg0) (V c main_arg1) (V c main_v0)) := by
  show (cfg0.win 3).cut (grid0.coords t) ((projDat V c).after 3 t) = _
  rw [projAfter3]
  funext j
  exact projStored_apply V c t j

theorem proj_mem_blk (t : Fin cfg0.N) (i : S16x2048x256.Idx) :
    i ∈ ((cfg0.win 3).blk t).view.set ↔ ∀ a : Fin 3, win0_3.index t a * S1x2048x256.size a ≤ (i a).val ∧ (i a).val < win0_3.index t a * S1x2048x256.size a + S1x2048x256.size a := by
  show i ∈ ((View.whole main_v1).slice (win0_3.rect t)).set ↔ _
  rw [View.set_slice_whole, Rect.mem_set_unit]
  exact Iff.rfl

/-- Every entry of the normalised rows is in some point's block. -/
theorem proj_cover (i : S16x2048x256.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 256 := (i 2).isLt
  obtain ⟨t, ht⟩ := proj_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [proj_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 256 ≤ (i 2).val ∧ (i 2).val < win0_3.index t (2 : Fin 3) * 256 + 256; omega

/-- THE NORMALISED ROWS after stage one. -/
theorem projFinal (c : Dev nD) :
    (projDat V c).arrAt 3 cfg0.N = unitArr (V c main_arg0) (V c main_arg1) (V c main_v0) :=
  (projDat V c).arrAt_eq_of_cover 3 _ (fun t _ => projFlushed V c t) proj_cover

/-! # Stage two -/

/-- The product of rows `n` and `m` of batch element `b` of an array `U` of rows. -/
def gramOf (U : S16x2048x256.Idx → EReal) (b : Fin 16) (n m : Fin 2048) : EReal := ∑ d : Fin 256, U (ix3 b n d) * U (ix3 b m d)
/-- The result as one function of the array of normalised rows. -/
def gramArr (U : S16x2048x256.Idx → EReal) : S16x2048x2048.Idx → EReal := fun i => gramOf U (i 0) (i 1) (i 2)

/-- The printed index maps over the grid: point (b, 0, j) takes rows block b whole, rows block (b, j) of 1024 rows, and
    writes result block (b, 0, j). -/
theorem gram_idx : ∀ t : Fin cfg1.N, win1_0.index t (0 : Fin 3) = win1_2.index t (0 : Fin 3) ∧ win1_0.index t (1 : Fin 3) = 0
    ∧ win1_0.index t (2 : Fin 3) = 0 ∧ win1_1.index t (0 : Fin 3) = win1_2.index t (0 : Fin 3)
    ∧ win1_1.index t (1 : Fin 3) = win1_2.index t (2 : Fin 3) ∧ win1_1.index t (2 : Fin 3) = 0
    ∧ win1_2.index t (1 : Fin 3) = 0 ∧ win1_2.index t (0 : Fin 3) ≤ 15 ∧ win1_2.index t (2 : Fin 3) ≤ 1 :=
  (by decide +kernel : ∀ t : Fin grid1.N, _)

/-- Every block of the result is some point's. -/
theorem gram_onto : ∀ (q0 : Fin 16) (q2 : Fin 2), ∃ t : Fin cfg1.N, win1_2.index t = ![q0.val, 0, q2.val] :=
  (by decide +kernel : ∀ (q0 : Fin 16) (q2 : Fin 2), ∃ t : Fin grid1.N, win1_2.index t = ![q0.val, 0, q2.val])

/-- The row block of point `t` is rows block `b` of the array, -/
theorem gramBlk0_apply (c : Dev nD) (t : Fin cfg1.N) (bt : Fin 16) (hbt : win1_2.index t (0 : Fin 3) = bt.val) (n : Fin 2048) (d : Fin 256) :
    gramBlk V c 0 t (ix3 (0 : Fin 1) n d) = V c main_v1 (ix3 bt n d) := by
  obtain ⟨e0, e1, e2, e3, e4, e5, e6, e7, e8⟩ := gram_idx t
  show V c main_v1 (((cfg1.win 0).blk t).view.emb (ix3 (0 : Fin 1) n d)) = V c main_v1 (ix3 bt n d)
  refine congrArg _ (funext fun a => Fin.ext ?_)
  match a with
  | ⟨0, _⟩ => show win1_0.index t (0 : Fin 3) * 1 + 1 * 0 = bt.val; omega
  | ⟨1, _⟩ => show win1_0.index t (1 : Fin 3) * 2048 + 1 * n.val = n.val; omega
  | ⟨2, _⟩ => show win1_0.index t (2 : Fin 3) * 256 + 1 * d.val = d.val; omega
/-- and the column block its rows 1024 j .. 1024 j + 1023. -/
theorem gramBlk1_apply (c : Dev nD) (t : Fin cfg1.N) (bt : Fin 16) (hbt : win1_2.index t (0 : Fin 3) = bt.val)
    (mq : Fin 2048) (q : Fin 1024) (hq : win1_2.index t (2 : Fin 3) * 1024 + q.val = mq.val) (d : Fin 256) :
    gramBlk V c 1 t (ix3 (0 : Fin 1) q d) = V c main_v1 (ix3 bt mq d) := by
  obtain ⟨e0, e1, e2, e3, e4, e5, e6, e7, e8⟩ := gram_idx t
  show V c main_v1 (((cfg1.win 1).blk t).view.emb (ix3 (0 : Fin 1) q d)) = V c main_v1 (ix3 bt mq d)
  refine congrArg _ (funext fun a => Fin.ext ?_)
  match a with
  | ⟨0, _⟩ => show win1_1.index t (0 : Fin 3) * 1 + 1 * 0 = bt.val; omega
  | ⟨1, _⟩ => show win1_1.index t (1 : Fin 3) * 1024 + 1 * q.val = mq.val; omega
  | ⟨2, _⟩ => show win1_1.index t (2 : Fin 3) * 256 + 1 * d.val = d.val; omega

/-- What point `t` stores, at an entry of its block, is the whole-array function there. -/
theorem gramStored_apply (c : Dev nD) (t : Fin cfg1.N) (j : S1x2048x1024.Idx) :
    gramOut (gramBlk V c 0 t) (gramBlk V c 1 t) j = gramArr (V c main_v1) (((cfg1.win 2).blk t).view.emb j) := by
  obtain ⟨u, n, q, rfl⟩ : ∃ (u : Fin 1) (n : Fin 2048) (q : Fin 1024), j = ix3 u n q := ⟨j 0, j 1, j 2, eq_ix3 j⟩
  obtain ⟨e0, e1, e2, e3, e4, e5, e6, e7, e8⟩ := gram_idx t
  have hemb : ((cfg1.win 2).blk t).view.emb (ix3 u n q)
      = ix3 (⟨win1_2.index t (0 : Fin 3), by omega⟩ : Fin 16) n (⟨win1_2.index t (2 : Fin 3) * 1024 + q.val, by omega⟩ : Fin 2048) :=
    funext fun a => Fin.ext (by
      match a with
      | ⟨0, _⟩ => show win1_2.index t (0 : Fin 3) * 1 + 1 * u.val = win1_2.index t (0 : Fin 3); omega
      | ⟨1, _⟩ => show win1_2.index t (1 : Fin 3) * 2048 + 1 * n.val = n.val; omega
      | ⟨2, _⟩ => show win1_2.index t (2 : Fin 3) * 1024 + 1 * q.val = win1_2.index t (2 : Fin 3) * 1024 + q.val; omega)
  rw [hemb]
  unfold gramOut
  rw [View.canon_unit_zero hz3]
  simp only [View.ld_unit_zero (S := S1x2048x256) hz3, View.ld_unit_zero (S := S1x1024x256) hz3]
  refine (gramPay_apply (gramBlk V c 0 t) (gramBlk V c 1 t) u n q).trans ?_
  show _ = gramOf _ (⟨win1_2.index t (0 : Fin 3), by omega⟩ : Fin 16) n (⟨win1_2.index t (2 : Fin 3) * 1024 + q.val, by omega⟩ : Fin 2048)
  unfold gramOf
  exact Finset.sum_congr rfl fun d _ => congrArg₂ (· * ·) (gramBlk0_apply V c t _ rfl n d) (gramBlk1_apply V c t _ rfl _ q rfl d)

/-- WHAT POINT `t` WRITES BACK is block `t` of the whole-array function. -/
theorem gramFlushed (c : Dev nD) (t : Fin cfg1.N) :
    (gramDat V c).flushed 2 t = ((cfg1.win 2).blk t).view.read (Elt Ideal) (gramArr (V c main_v1)) := by
  show (cfg1.win 2).cut (grid1.coords t) ((gramDat V c).after 2 t) = _
  rw [gramAfter2]
  funext j
  exact gramStored_apply V c t j

theorem gram_mem_blk (t : Fin cfg1.N) (i : S16x2048x2048.Idx) :
    i ∈ ((cfg1.win 2).blk t).view.set ↔ ∀ a : Fin 3, win1_2.index t a * S1x2048x1024.size a ≤ (i a).val ∧ (i a).val < win1_2.index t a * S1x2048x1024.size a + S1x2048x1024.size a := by
  show i ∈ ((View.whole main_v2).slice (win1_2.rect t)).set ↔ _
  rw [View.set_slice_whole, Rect.mem_set_unit]
  exact Iff.rfl

/-- Every entry of the result is in some point's block. -/
theorem gram_cover (i : S16x2048x2048.Idx) : ∃ t : Fin cfg1.N, (cfg1.win 2).flush t = true ∧ i ∈ ((cfg1.win 2).blk t).view.set := by
  have hi0 : (i 0).val < 16 := (i 0).isLt
  have hi1 : (i 1).val < 2048 := (i 1).isLt
  have hi2 : (i 2).val < 2048 := (i 2).isLt
  obtain ⟨t, ht⟩ := gram_onto ⟨(i 0).val, hi0⟩ ⟨(i 2).val / 1024, by omega⟩
  have q0 : win1_2.index t (0 : Fin 3) = (i 0).val := congrFun ht 0
  have q1 : win1_2.index t (1 : Fin 3) = 0 := congrFun ht 1
  have q2 : win1_2.index t (2 : Fin 3) = (i 2).val / 1024 := congrFun ht 2
  refine ⟨t, flush1_2 t, ?_⟩
  rw [gram_mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 2048 ≤ (i 1).val ∧ (i 1).val < win1_2.index t (1 : Fin 3) * 2048 + 2048; omega
  | ⟨2, _⟩ => show win1_2.index t (2 : Fin 3) * 1024 ≤ (i 2).val ∧ (i 2).val < win1_2.index t (2 : Fin 3) * 1024 + 1024; omega

/-- THE RESULT after stage two. -/
theorem gramFinal (c : Dev nD) : (gramDat V c).arrAt 2 cfg1.N = gramArr (V c main_v1) :=
  (gramDat V c).arrAt_eq_of_cover 2 _ (fun t _ => gramFlushed V c t) gram_cover

end Cert.KernelIdeal.Arrays

end
-- ==== Proof.Reference.lean ====
/-
  The reference program computes the specification: read one operation at a time, its projection is `proj`, its sum of
  squares along the feature axis is `sumsq` (the sum starts from the zero word), the quotient by the square root kept as a
  column and repeated across the row is `unitR`, and the last product, batched over the first axis and contracted over the
  feature axis of both operands, is `gramR`.
-/
import proofs.«136326_j40570261078386_2_alg».proof.Proof.Gen.ReferenceIdeal.Run
import proofs.«136326_j40570261078386_2_alg».proof.Proof.Gen.ReferenceIdeal.Read
import proofs.«136326_j40570261078386_2_alg».proof.Proof.Cosine

noncomputable section

open scoped BigOperators

namespace Cert.ReferenceIdeal.AsCosine

open Cert.ReferenceIdeal Cert.ReferenceIdeal.Gen Cert.ReferenceIdeal.Read Idealize.ShloMosaic Idealize.ShloMosaic.ValueIdx Cert.Cosine

variable (X : (⟨S16x2048x256, .f32⟩ : BufTy).Contents (Elt Ideal)) (W : (⟨S256x256, .f32⟩ : BufTy).Contents (Elt Ideal))
  (bias : (⟨S256, .f32⟩ : BufTy).Contents (Elt Ideal))

theorem ref_proj (b : Fin 16) (n : Fin 2048) (e : Fin 256) :
    val_main_v3 (F := Ideal) X W bias (ix3 b n e) = proj X W (fun e => bias (ix1 e)) b n e := by
  rw [val_main_v3_apply, val_main_v0_apply, val_main_v2_apply, val_main_v1_apply]
  unfold proj
  refine congrArg₂ (· + ·) (Finset.sum_congr rfl fun k _ => congrArg₂ (· * ·) (congrArg X ?_) (congrArg W ?_)) (congrArg bias ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
  · funext a; apply Fin.ext
    match a with
    | ⟨0, _⟩ => rfl

theorem ref_sumsq (b : Fin 16) (n : Fin 2048) :
    val_main_v5 (F := Ideal) X W bias (ix2 b n) = sumsq X W (fun e => bias (ix1 e)) b n := by
  rw [val_main_v5_apply, val_main_cst_apply]
  unfold sumsq
  show Ideal.ofBits .f32 0x00000000#32 + _ = _
  rw [Ideal.ofBits_zero_f32, zero_add]
  refine Finset.sum_congr rfl fun k _ => ?_
  have hi : idx_main_v5 (ix2 b n) k = ix3 b n k := by
    funext a; apply Fin.ext
    match a with
    | ⟨0, _⟩ => rfl
    | ⟨1, _⟩ => rfl
    | ⟨2, _⟩ => rfl
  rw [hi, val_main_v4_apply, ref_proj]
  rfl

theorem ref_unit (b : Fin 16) (n : Fin 2048) (e : Fin 256) :
    val_main_v9 (F := Ideal) X W bias (ix3 b n e) = unitR X W (fun e => bias (ix1 e)) b n e := by
  rw [val_main_v9_apply, val_main_v8_apply, val_main_v7_apply, val_main_v6_apply, ref_proj]
  have h8 : idx_main_v6 (idx_main_v8 (ix3 b n e)) = ix2 b n := by
    funext a; apply Fin.ext
    match a with
    | ⟨0, _⟩ => rfl
    | ⟨1, _⟩ => rfl
  rw [h8, ref_sumsq]
  rfl

/-- The reference's result, entry by entry. -/
theorem ref_gram (b : Fin 16) (n m : Fin 2048) :
    val_main_v10 (F := Ideal) X W bias (ix3 b n m) = gramR X W (fun e => bias (ix1 e)) b n m := by
  rw [val_main_v10_apply]
  unfold gramR
  refine Finset.sum_congr rfl fun d _ => ?_
  have hl : lidx_main_v10 (ix3 b n m) d = ix3 b n d := by
    funext a; apply Fin.ext
    match a with
    | ⟨0, _⟩ => rfl
    | ⟨1, _⟩ => rfl
    | ⟨2, _⟩ => rfl
  have hr : ridx_main_v10 (ix3 b n m) d = ix3 b m d := by
    funext a; apply Fin.ext
    match a with
    | ⟨0, _⟩ => rfl
    | ⟨1, _⟩ => rfl
    | ⟨2, _⟩ => rfl
  rw [hl, hr, ref_unit, ref_unit]

end Cert.ReferenceIdeal.AsCosine

end
-- ==== Proof.Result.lean ====
/-
  Both programs end at the specification's matrix.

  The kernel: stage one is entered with the input and the weights as launched and the bias reshaped to a row, so the rows it
  leaves are the projection scaled by the reciprocal square root of each row's sum of squares; stage two multiplies those
  rows, so the result is `gramK` of the launch arrays.
  The reference: its last stage is `gramR` of the same arrays.
  The precondition's last conjunct says that every row's sum of squares — spelt in the reference's own operations — is
  greater than the zero word; read at one row it is `0 < sumsq`, under which `gramK = gramR`.
-/
import proofs.«136326_j40570261078386_2_alg».proof.Defs
import proofs.«136326_j40570261078386_2_alg».proof.Proof.IdealRun
import proofs.«136326_j40570261078386_2_alg».proof.Proof.IdealArrays
import proofs.«136326_j40570261078386_2_alg».proof.Proof.Reference
import proofs.«136326_j40570261078386_2_alg».proof.Proof.Gen.Pre_finite_inputs
import Idealize.ShloMosaic.Lib.ReduceAll
import Idealize.ShloMosaic.Lib.ValueLayout
import Idealize.ShloMosaic.Lib.StableHlo.Run

set_option maxRecDepth 16384

noncomputable section

open scoped BigOperators

namespace Cert.Result

open Idealize.ShloMosaic Idealize.ShloMosaic.TcCoe Idealize.ShloMosaic.ValueIdx Idealize.ShloMosaic.StableHlo
open Idealize.SL Idealize.SL.Sem
open Cert.Cosine

/-- The matrix both programs end at: entry (b, n, m) is the product of rows n and m of batch element b, each scaled to unit
    length. -/
def cosines (X : (⟨3, ![16, 2048, 256]⟩ : Shape).Idx → EReal) (W : (⟨2, ![256, 256]⟩ : Shape).Idx → EReal)
    (bias : (⟨1, ![256]⟩ : Shape).Idx → EReal) : (⟨3, ![16, 2048, 2048]⟩ : Shape).Idx → EReal :=
  fun i => gramK X W (fun e => bias (ix1 e)) (i 0) (i 1) (i 2)

/-! ## The precondition at one row -/

instance : Subsingleton Cert.Pre_finite_inputs.S_.Idx := ⟨fun a b => funext fun d => d.elim0⟩

/-- A comparison "greater than" that answered 1 is the order's. -/
theorem lt_of_cmp_ogt (s z : EReal) (h : Ideal.cmp .ogt s z = 1#1) : z < s := by
  have h' : BitVec.ofBool (decide (z < s)) = 1#1 := h
  by_contra hn
  rw [show decide (z < s) = false from decide_eq_false hn] at h'
  exact absurd h' (by decide)

open Cert.ReferenceIdeal Cert.ReferenceIdeal.Gen in
/-- The precondition holds only where every projected row has a positive sum of squares. -/
theorem rows_positive (X : (⟨S16x2048x256, .f32⟩ : BufTy).Contents (Elt Ideal)) (W : (⟨S256x256, .f32⟩ : BufTy).Contents (Elt Ideal))
    (bias : (⟨S256, .f32⟩ : BufTy).Contents (Elt Ideal))
    (h : Cert.Pre_finite_inputs.fn (F := Ideal) X W bias = fun _ => 1#1) (b : Fin 16) (n : Fin 2048) :
    0 < sumsq X W (fun e => bias (ix1 e)) b n := by
  have h0 := congrFun h ValueIdx.ix0
  dsimp only [Cert.Pre_finite_inputs.fn, Cert.Pre_finite_inputs.fn_part1] at h0
  have h1 := (IntOp.andi_eq_one.mp h0).2
  have h2 := Host.reduce_andi_all _ _ _ _ _ h1 (ix2 b n)
  have h3 : Ideal.cmp .ogt (Cert.ReferenceIdeal.Read.val_main_v5 (F := Ideal) X W bias (ix2 b n)) (Ideal.ofBits .f32 0x00000000#32) = 1#1 := h2
  rw [Cert.ReferenceIdeal.AsCosine.ref_sumsq, Ideal.ofBits_zero_f32] at h3
  exact lt_of_cmp_ogt _ _ h3

/-! ## The reference's result -/

open Cert.ReferenceIdeal Cert.ReferenceIdeal.Gen in
theorem reference_result (X : (⟨S16x2048x256, .f32⟩ : BufTy).Contents (Elt Ideal)) (W : (⟨S256x256, .f32⟩ : BufTy).Contents (Elt Ideal))
    (bias : (⟨S256, .f32⟩ : BufTy).Contents (Elt Ideal))
    (h : Cert.Pre_finite_inputs.fn (F := Ideal) X W bias = fun _ => 1#1) :
    Cert.ReferenceIdeal.Read.val_main_v10 (F := Ideal) X W bias = cosines X W bias := by
  unfold cosines
  funext i
  obtain ⟨b, n, mm, rfl⟩ : ∃ (b : Fin 16) (n mm : Fin 2048), i = ix3 b n mm := ⟨i 0, i 1, i 2, eq_ix3 i⟩
  rw [Cert.ReferenceIdeal.AsCosine.ref_gram]
  exact (gramK_eq_gramR _ _ _ (rows_positive X W bias h) b n mm).symm

/-! ## The kernel's result -/

section Kernel
open Cert.KernelIdeal Cert.KernelIdeal.Gen Cert.KernelIdeal.Stages Cert.KernelIdeal.Run Cert.KernelIdeal.Arrays

variable (m : (ℓ : Loc nD τ sig) → Buf (Elt Ideal) ℓ) (ρ : Dev nD → PrngReg)

/-- Stage one finds the input as launched, -/
theorem entry_input (c : Dev nD) : E1 m ρ c main_arg0 = m ((c : Thread nD τ).loc main_arg0) := by
  dsimp only [E1, B1, B0, hostOps0]
  after_results
/-- the weights as launched, -/
theorem entry_weights (c : Dev nD) : E1 m ρ c main_arg1 = m ((c : Thread nD τ).loc main_arg1) := by
  dsimp only [E1, B1, B0, hostOps0]
  after_results
/-- and the bias as a row. -/
theorem entry_bias (c : Dev nD) :
    (E1 m ρ c main_v0 : S1x256.Idx → EReal) = shapeCast S1x256 (m ((c : Thread nD τ).loc main_arg2)) shapeCasts_S256_S1x256 := by
  dsimp only [E1, B1, B0, hostOps0]
  after_results
  rfl

/-- The result array after the run is `gramK` of the launch arrays. -/
theorem kernel_result (c : Dev nD) :
    (gramDat (E2 m ρ) c).arrAt 2 cfg1.N
      = cosines (m ((c : Thread nD τ).loc main_arg0)) (m ((c : Thread nD τ).loc main_arg1)) (m ((c : Thread nD τ).loc main_arg2)) := by
  unfold cosines
  rw [gramFinal]
  have hU : E2 m ρ c main_v1 = unitArr (m ((c : Thread nD τ).loc main_arg0)) (m ((c : Thread nD τ).loc main_arg1)) (E1 m ρ c main_v0) := by
    have h3 := (B2_arr m ρ c 3).trans (projFinal (E1 m ρ) c)
    rw [entry_input, entry_weights] at h3
    exact h3
  rw [hU]
  have hB : (fun e : Fin 256 => E1 m ρ c main_v0 (ix2 (0 : Fin 1) e)) = fun e => m ((c : Thread nD τ).loc main_arg2) (ix1 e) :=
    funext fun e => by rw [entry_bias]; exact shapeCast_a_1a_apply _ _ 0 e
  funext i
  show gramOf (unitArr _ _ _) (i 0) (i 1) (i 2) = _
  unfold gramOf gramK
  refine Finset.sum_congr rfl fun d _ => ?_
  show unitK _ _ (fun e : Fin 256 => E1 m ρ c main_v0 (ix2 (0 : Fin 1) e)) _ _ d * unitK _ _ (fun e : Fin 256 => E1 m ρ c main_v0 (ix2 (0 : Fin 1) e)) _ _ d = _
  rw [hB]

end Kernel

end Cert.Result

end
-- ==== Proof.lean ====
/- The two programs compute one matrix of cosines.

   For an input x : [16, 2048, 256], weights W : [256, 256] and a bias b : [256], both programs project every row,
   p = x · Wᵀ + b, scale it to unit length and multiply the scaled rows of each batch element with one another. The kernel
   does it in two launches — project and scale by the reciprocal square root of the row's sum of squares, one batch element
   per grid point; then one 2048 × 1024 block of products per grid point — and the reference divides by the square root. The
   two scalings are one function wherever the row's sum of squares is positive (Proof/Cosine.lean), which the precondition
   states, so the results are equal entry by entry on the extended reals (Proof/Result.lean).

   Every program runs to its end without a fault and leaves its arguments as launched: for the kernel, read at the machine's
   words and at the extended reals alike, by one run through its three items (Proof/BitsRun.lean, Proof/IdealRun.lean over
   Proof/BitsStages.lean, Proof/IdealStages.lean); for the reference by its generated run. The kernel's idealization rewrote
   nothing, so there is nothing to state of it. -/
import proofs.«136326_j40570261078386_2_alg».proof.Defs
import proofs.«136326_j40570261078386_2_alg».proof.Proof.Gen.Kernel
import proofs.«136326_j40570261078386_2_alg».proof.Proof.Gen.KernelIdeal
import proofs.«136326_j40570261078386_2_alg».proof.Proof.Gen.ReferenceIdeal
import proofs.«136326_j40570261078386_2_alg».proof.Proof.Gen.Pre_finite_inputs
import proofs.«136326_j40570261078386_2_alg».proof.Proof.BitsRun
import proofs.«136326_j40570261078386_2_alg».proof.Proof.IdealRun
import proofs.«136326_j40570261078386_2_alg».proof.Proof.Result
import Idealize.ShloMosaic.Adequacy
import Idealize.ShloMosaic.Init

noncomputable section

namespace Cert.Proof

open Idealize.ShloMosaic Idealize.SL.Sem

/-- The kernel at the machine's words runs and keeps its arguments. -/
theorem frame_kernel : Cert.frame_Kernel := fun m ρ _ =>
  (θ_run (Cert.Kernel.defs (F := Bits)) _ _).mono (fun _ h c => (h c).2) (Cert.Kernel.Run.run (F := Bits) m ρ)

/-- The kernel at the extended reals runs and keeps its arguments. -/
theorem frame_kernelIdeal : Cert.frame_KernelIdeal := fun m ρ _ =>
  (θ_run (Cert.KernelIdeal.defs (F := Ideal)) _ _).mono (fun _ h c => (h c).2) (Cert.KernelIdeal.Run.run (F := Ideal) m ρ)

/-- The reference runs and keeps its arguments. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end at the matrix of cosines of the projected rows. -/
theorem algebraic : Cert.algebraic_KernelIdeal_ReferenceIdeal := by
  intro m ρ m' ρ' hpre hagree
  refine ⟨fun c => Cert.Result.cosines (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono
      (fun _ h c => ⟨(h c).1.trans (Cert.Result.kernel_result m ρ c), (h c).2⟩) (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v10_eq _ _ _).trans ?_
    rw [(hagree c).1, (hagree c).2.1, (hagree c).2.2]
    exact Cert.Result.reference_result _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
